-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S2x320000 : Shape := ⟨2, ![2, 320000]⟩
abbrev S320000 : Shape := ⟨1, ![320000]⟩
abbrev S2000 : Shape := ⟨1, ![2000]⟩
abbrev S10000 : Shape := ⟨1, ![10000]⟩
abbrev S10000x200 : Shape := ⟨2, ![10000, 200]⟩
abbrev S200 : Shape := ⟨1, ![200]⟩
abbrev S200x8 : Shape := ⟨2, ![200, 8]⟩
abbrev S8 : Shape := ⟨1, ![8]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S320000 : S_.BroadcastsInDim S320000 (![] : Fin 0 → Fin S320000.rank)
  reducesTo_S320000_S_d0 : S320000.ReducesTo [0] S_
  bcast_S_S10000x200 : S_.BroadcastsInDim S10000x200 (![] : Fin 0 → Fin S10000x200.rank)
  reducesTo_S10000x200_S_d0_1 : S10000x200.ReducesTo [0, 1] S_
  bcast_S_S200 : S_.BroadcastsInDim S200 (![] : Fin 0 → Fin S200.rank)
  reducesTo_S200_S_d0 : S200.ReducesTo [0] S_
  bcast_S_S200x8 : S_.BroadcastsInDim S200x8 (![] : Fin 0 → Fin S200x8.rank)
  reducesTo_S200x8_S_d0_1 : S200x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg7 : FVec F S200x8 .f32) (main_arg8 : FVec F S8 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S200x8 .f32 := Host.absf main_arg7
  let main_cst_6 : FVec F S_ .f32 := constant S_ .f32 0x7F800000#32
  let main_v20 : FVec F S200x8 .f32 := broadcastInDim S200x8 ![] bcast_S_S200x8 main_cst_6
  let main_v21 : IVec S200x8 1 := cmpf .olt main_v19 main_v20
  let main_c_7 : IVec S_ 1 := constantI S_ 1 1#1
  let main_v22 : IVec S_ 1 := (fun x v => Host.reduce IntOp.andi x v reducesTo_S200x8_S_d0_1 h_S_) main_v21 main_c_7
  let main_v23 : IVec S_ 1 := andi main_v18 main_v22
  let main_v24 : FVec F S8 .f32 := Host.absf main_arg8
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S10000x10000 .f32) (main_arg1 : IVec S2x320000 32) (main_arg2 : FVec F S320000 .f32) (main_arg3 : IVec S2000 32) (main_arg4 : IVec S10000 32) (main_arg5 : FVec F S10000x200 .f32) (main_arg6 : FVec F S200 .f32) (main_arg7 : FVec F S200x8 .f32) (main_arg8 : FVec F S8 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S10000x200 .f32 := Host.absf main_arg5
  let main_cst_2 : FVec F S_ .f32 := constant S_ .f32 0x7F800000#32
  let main_v10 : FVec F S10000x200 .f32 := broadcastInDim S10000x200 ![] bcast_S_S10000x200 main_cst_2
  let main_v11 : IVec S10000x200 1 := cmpf .olt main_v9 main_v10
  let main_c_3 : IVec S_ 1 := constantI S_ 1 1#1
  let main_v12 : IVec S_ 1 := (fun x v => Host.reduce IntOp.andi x v reducesTo_S10000x200_S_d0_1 h_S_) main_v11 main_c_3
  let main_v13 : IVec S_ 1 := andi main_v8 main_v12
  let main_v14 : FVec F S200 .f32 := Host.absf main_arg6
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg7 main_arg8 main_v13 main_v16
-- ==== Kernel.lean ====
abbrev S10000x10000 : Shape := ⟨2, ![10000, 10000]⟩
abbrev S2x320000 : Shape := ⟨2, ![2, 320000]⟩
abbrev S320000 : Shape := ⟨1, ![320000]⟩
abbrev S2000 : Shape := ⟨1, ![2000]⟩
abbrev S10000 : Shape := ⟨1, ![10000]⟩
abbrev S10000x200 : Shape := ⟨2, ![10000, 200]⟩
abbrev S200 : Shape := ⟨1, ![200]⟩
abbrev S200x8 : Shape := ⟨2, ![200, 8]⟩
abbrev S8 : Shape := ⟨1, ![8]⟩
abbrev S1x320000 : Shape := ⟨2, ![1, 320000]⟩
abbrev S330000 : Shape := ⟨1, ![330000]⟩
abbrev S_ : Shape := ⟨0, ![]⟩
abbrev S330000x1 : Shape := ⟨2, ![330000, 1]⟩
abbrev S200x10000 : Shape := ⟨2, ![200, 10000]⟩
abbrev S200x200 : Shape := ⟨2, ![200, 200]⟩
abbrev S330000x200 : Shape := ⟨2, ![330000, 200]⟩
abbrev S1x200 : Shape := ⟨2, ![1, 200]⟩
abbrev S10000x8 : Shape := ⟨2, ![10000, 8]⟩
abbrev S330000x8 : Shape := ⟨2, ![330000, 8]⟩
abbrev S1x8 : Shape := ⟨2, ![1, 8]⟩
abbrev S2000x1 : Shape := ⟨2, ![2000, 1]⟩
abbrev S2000x8 : Shape := ⟨2, ![2000, 8]⟩

abbrev nBuf : Space → Nat
  | .hbm => 114
  | .vmem => 10
  | .smem => 0
  | _ => 0

abbrev bufTy : (tb : Table) → Fin (tcTables nBuf tb) → BufTy
  | .hbm, ⟨0, _⟩ => ⟨S10000x10000, .f32⟩
  | .hbm, ⟨1, _⟩ => ⟨S2x320000, .i32⟩
  | .hbm, ⟨2, _⟩ => ⟨S320000, .f32⟩
  | .hbm, ⟨3, _⟩ => ⟨S2000, .i32⟩
  | .hbm, ⟨4, _⟩ => ⟨S10000, .i32⟩
  | .hbm, ⟨5, _⟩ => ⟨S10000x200, .f32⟩
  | .hbm, ⟨6, _⟩ => ⟨S200, .f32⟩
  | .hbm, ⟨7, _⟩ => ⟨S200x8, .f32⟩
  | .hbm, ⟨8, _⟩ => ⟨S8, .f32⟩
  | .hbm, ⟨9, _⟩ => ⟨S10000, .i32⟩
  | .hbm, ⟨10, _⟩ => ⟨S1x320000, .i32⟩
  | .hbm, ⟨11, _⟩ => ⟨S320000, .i32⟩
  | .hbm, ⟨12, _⟩ => ⟨S330000, .i32⟩
  | .hbm, ⟨13, _⟩ => ⟨S1x320000, .i32⟩
  | .hbm, ⟨14, _⟩ => ⟨S320000, .i32⟩
  | .hbm, ⟨15, _⟩ => ⟨S330000, .i32⟩
  | .hbm, ⟨16, _⟩ => ⟨S_, .f32⟩
  | .hbm, ⟨17, _⟩ => ⟨S10000, .f32⟩
  | .hbm, ⟨18, _⟩ => ⟨S330000, .f32⟩
  | .hbm, ⟨19, _⟩ => ⟨S_, .f32⟩
  | .hbm, ⟨20, _⟩ => ⟨S10000, .f32⟩
  | .hbm, ⟨21, _⟩ => ⟨S330000x1, .i32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .i1⟩
  | .hbm, ⟨26, _⟩ => ⟨S10000, .f32⟩
  | .hbm, ⟨27, _⟩ => ⟨S_, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .i32⟩
  | .hbm, ⟨32, _⟩ => ⟨S330000, .i32⟩
  | .hbm, ⟨33, _⟩ => ⟨S330000, .i1⟩
  | .hbm, ⟨34, _⟩ => ⟨S_, .i32⟩
  | .hbm, ⟨35, _⟩ => ⟨S330000, .i32⟩
  | .hbm, ⟨36, _⟩ => ⟨S330000, .i32⟩
  | .hbm, ⟨37, _⟩ => ⟨S330000, .i32⟩
  | .hbm, ⟨38, _⟩ => ⟨S330000x1, .i32⟩
  | .hbm, ⟨39, _⟩ => ⟨S330000, .f32⟩
  | .hbm, ⟨40, _⟩ => ⟨S330000, .f32⟩
  | .hbm, ⟨41, _⟩ => ⟨S_, .i32⟩
  | .hbm, ⟨42, _⟩ => ⟨S330000, .i32⟩
  | .hbm, ⟨43, _⟩ => ⟨S330000, .i1⟩
  | .hbm, ⟨44, _⟩ => ⟨S_, .i32⟩
  | .hbm, ⟨45, _⟩ => ⟨S330000, .i32⟩
  | .hbm, ⟨46, _⟩ => ⟨S330000, .i32⟩
  | .hbm, ⟨47, _⟩ => ⟨S330000, .i32⟩
  | .hbm, ⟨48, _⟩ => ⟨S330000x1, .i32⟩
  | .hbm, ⟨49, _⟩ => ⟨S330000, .f32⟩
  | .hbm, ⟨50, _⟩ => ⟨S330000, .f32⟩
  | .hbm, ⟨51, _⟩ => ⟨S10000x200, .bf16⟩
  | .hbm, ⟨52, _⟩ => ⟨S10000x200, .f32⟩
  | .hbm, ⟨53, _⟩ => ⟨S_, .i32⟩
  | .hbm, ⟨54, _⟩ => ⟨S330000, .i32⟩
  | .hbm, ⟨55, _⟩ => ⟨S330000, .i1⟩
  | .hbm, ⟨56, _⟩ => ⟨S_, .i32⟩
  | .hbm, ⟨57, _⟩ => ⟨S330000, .i32⟩
  | .hbm, ⟨58, _⟩ => ⟨S330000, .i32⟩
  | .hbm, ⟨59, _⟩ => ⟨S330000, .i32⟩
  | .hbm, ⟨60, _⟩ => ⟨S330000x1, .i32⟩
  | .hbm, ⟨61, _⟩ => ⟨S330000x200, .f32⟩
  | .hbm, ⟨62, _⟩ => ⟨S330000x1, .f32⟩
  | .hbm, ⟨63, _⟩ => ⟨S330000x200, .f32⟩
  | .hbm, ⟨64, _⟩ => ⟨S330000x200, .f32⟩
  | .hbm, ⟨65, _⟩ => ⟨S_, .f32⟩
  | .hbm, ⟨66, _⟩ => ⟨S10000x200, .f32⟩
  | .hbm, ⟨67, _⟩ => ⟨S330000x1, .i32⟩
  | .hbm, ⟨68, _⟩ => ⟨S10000x200, .f32⟩
  | .hbm, ⟨69, _⟩ => ⟨S1x200, .f32⟩
  | .hbm, ⟨70, _⟩ => ⟨S10000x200, .f32⟩
  | .hbm, ⟨71, _⟩ => ⟨S10000x200, .f32⟩
  | .hbm, ⟨72, _⟩ => ⟨S_, .f32⟩
  | .hbm, ⟨73, _⟩ => ⟨S10000x200, .f32⟩
  | .hbm, ⟨74, _⟩ => ⟨S10000x200, .f32⟩
  | .hbm, ⟨75, _⟩ => ⟨S200x8, .bf16⟩
  | .hbm, ⟨76, _⟩ => ⟨S10000x8, .f32⟩
  | .hbm, ⟨77, _⟩ => ⟨S_, .i32⟩
  | .hbm, ⟨78, _⟩ => ⟨S330000, .i32⟩
  | .hbm, ⟨79, _⟩ => ⟨S330000, .i1⟩
  | .hbm, ⟨80, _⟩ => ⟨S_, .i32⟩
  | .hbm, ⟨81, _⟩ => ⟨S330000, .i32⟩
  | .hbm, ⟨82, _⟩ => ⟨S330000, .i32⟩
  | .hbm, ⟨83, _⟩ => ⟨S330000, .i32⟩
  | .hbm, ⟨84, _⟩ => ⟨S330000x1, .i32⟩
  | .hbm, ⟨85, _⟩ => ⟨S330000x8, .f32⟩
  | .hbm, ⟨86, _⟩ => ⟨S330000x1, .f32⟩
  | .hbm, ⟨87, _⟩ => ⟨S330000x8, .f32⟩
  | .hbm, ⟨88, _⟩ => ⟨S330000x8, .f32⟩
  | .hbm, ⟨89, _⟩ => ⟨S_, .f32⟩
  | .hbm, ⟨90, _⟩ => ⟨S10000x8, .f32⟩
  | .hbm, ⟨91, _⟩ => ⟨S330000x1, .i32⟩
  | .hbm, ⟨92, _⟩ => ⟨S10000x8, .f32⟩
  | .hbm, ⟨93, _⟩ => ⟨S1x8, .f32⟩
  | .hbm, ⟨94, _⟩ => ⟨S10000x8, .f32⟩
  | .hbm, ⟨95, _⟩ => ⟨S10000x8, .f32⟩
  | .hbm, ⟨96, _⟩ => ⟨S_, .i32⟩
  | .hbm, ⟨97, _⟩ => ⟨S2000, .i32⟩
  | .hbm, ⟨98, _⟩ => ⟨S2000, .i1⟩
  | .hbm, ⟨99, _⟩ => ⟨S_, .i32⟩
  | .hbm, ⟨100, _⟩ => ⟨S2000, .i32⟩
  | .hbm, ⟨101, _⟩ => ⟨S2000, .i32⟩
  | .hbm, ⟨102, _⟩ => ⟨S2000, .i32⟩
  | .hbm, ⟨103, _⟩ => ⟨S2000x1, .i32⟩
  | .hbm, ⟨104, _⟩ => ⟨S2000x8, .f32⟩
  | .hbm, ⟨105, _⟩ => ⟨S_, .i32⟩
  | .hbm, ⟨106, _⟩ => ⟨S2000, .i32⟩
  | .hbm, ⟨107, _⟩ => ⟨S2000, .i1⟩
  | .hbm, ⟨108, _⟩ => ⟨S_, .i32⟩
  | .hbm, ⟨109, _⟩ => ⟨S2000, .i32⟩
  | .hbm, ⟨110, _⟩ => ⟨S2000, .i32⟩
  | .hbm, ⟨111, _⟩ => ⟨S2000, .i32⟩
  | .hbm, ⟨112, _⟩ => ⟨S2000x1, .i32⟩
  | .hbm, ⟨113, _⟩ => ⟨S2000, .i32⟩
  | .local _ .vmem, ⟨0, _⟩ => ⟨S200x10000, .f32⟩
  | .local _ .vmem, ⟨1, _⟩ => ⟨S200x10000, .f32⟩
  | .local _ .vmem, ⟨2, _⟩ => ⟨S10000x200, .bf16⟩
  | .local _ .vmem, ⟨3, _⟩ => ⟨S200x200, .f32⟩
  | .local _ .vmem, ⟨4, _⟩ => ⟨S200x200, .f32⟩
  | .local _ .vmem, ⟨5, _⟩ => ⟨S200x200, .f32⟩
  | .local _ .vmem, ⟨6, _⟩ => ⟨S200x200, .f32⟩
  | .local _ .vmem, ⟨7, _⟩ => ⟨S200x8, .bf16⟩
  | .local _ .vmem, ⟨8, _⟩ => ⟨S200x8, .f32⟩
  | .local _ .vmem, ⟨9, _⟩ => ⟨S200x8, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_c_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_14 : Ref sig .tc := ⟨.hbm, 105, rfl⟩
abbrev main_v76 : Ref sig .tc := ⟨.hbm, 106, rfl⟩
abbrev main_v77 : Ref sig .tc := ⟨.hbm, 107, rfl⟩
abbrev main_c_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S200x8 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  inb_S10000x200_S10000x200_0_0 : ∀ a, (![0, 0] : Fin 2 → Nat) a + S10000x200.size a ≤ S10000x200.size a
  h_S10000x200 : 0 < S10000x200.numel
  shapeCasts_S10000x200_S10000x200 : S10000x200.ShapeCasts S10000x200
  inb_S200x200_S200x200_0_0 : ∀ a, (![0, 0] : Fin 2 → Nat) a + S200x200.size a ≤ S200x200.size a
  h_S200x200 : 0 < S200x200.numel
  bcast_S330000x1_S330000x200_0_1 : S330000x1.BroadcastsInDim S330000x200 (![0, 1] : Fin 2 → Fin S330000x200.rank)
  bcast_S_S10000x200 : S_.BroadcastsInDim S10000x200 (![] : Fin 0 → Fin S10000x200.rank)
  bcast_S200_S1x200_1 : S200.BroadcastsInDim S1x200 (![1] : Fin 1 → Fin S1x200.rank)
  bcast_S1x200_S10000x200_0_1 : S1x200.BroadcastsInDim S10000x200 (![0, 1] : Fin 2 → Fin S10000x200.rank)
  shapeCasts_S200x200_S200x200 : S200x200.ShapeCasts S200x200
  inb_S200x8_S200x8_0_0 : ∀ a, (![0, 0] : Fin 2 → Nat) a + S200x8.size a ≤ S200x8.size a
  h_S200x8 : 0 < S200x8.numel
  shapeCasts_S200x8_S200x8 : S200x8.ShapeCasts S200x8
  bcast_S330000x1_S330000x8_0_1 : S330000x1.BroadcastsInDim S330000x8 (![0, 1] : Fin 2 → Fin S330000x8.rank)
  bcast_S_S10000x8 : S_.BroadcastsInDim S10000x8 (![] : Fin 0 → Fin S10000x8.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  bcast_S_S2000 : S_.BroadcastsInDim S2000 (![] : Fin 0 → Fin S2000.rank)
  bcast_S2000_S2000x1_0 : S2000.BroadcastsInDim S2000x1 (![0] : Fin 1 → Fin S2000x1.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S200x10000_S10000x200_S200x200_1_0_0_1_n_n_wf : DotDims.WF S200x10000 S10000x200 S200x200 [1] [0] [0] [1] [] []
  gather_S10000x200_S330000x1_S330000x200_1_0_n_n_0_1_1200_wf : GatherDims.WF S10000x200 S330000x1 S330000x200 [1] [0] [] [0] [] 1 ![1, 200]
  scatter_S10000x200_S330000x1_S330000x200_1_0_0_1_wf : ScatterDims.WF S10000x200 S330000x1 S330000x200 [1] [0] [0] 1
  dot_S200x200_S200x8_S200x8_1_0_0_1_n_n_wf : DotDims.WF S200x200 S200x8 S200x8 [1] [0] [0] [1] [] []
  gather_S10000x8_S330000x1_S330000x8_1_0_n_n_0_1_18_wf : GatherDims.WF S10000x8 S330000x1 S330000x8 [1] [0] [] [0] [] 1 ![1, 8]
  scatter_S10000x8_S330000x1_S330000x8_1_0_0_1_wf : ScatterDims.WF S10000x8 S330000x1 S330000x8 [1] [0] [0] 1
  gather_S10000x8_S2000x1_S2000x8_1_0_n_n_0_1_18_wf : GatherDims.WF S10000x8 S2000x1 S2000x8 [1] [0] [] [0] [] 1 ![1, 8]
  gather_S10000_S2000x1_S2000_n_0_n_n_0_1_1_wf : GatherDims.WF S10000 S2000x1 S2000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x200.size a ≤ S10000x200.size a
  hwx0_1 : ∀ i : grid0.Coords, EltTy.bits .bf16 = 32 ∨ (Rect.block (s := S10000x200) S10000x200.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x200.size a ≤ S10000x200.size a
  hwx0_2 : ∀ i : grid0.Coords, EltTy.bits .f32 = 32 ∨ (Rect.block (s := S10000x200) S200x200.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x200.size a ≤ S10000x200.size a
  hwx1_0 : ∀ i : grid1.Coords, EltTy.bits .f32 = 32 ∨ (Rect.block (s := S10000x200) S200x200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x8.size a ≤ S200x8.size a
  hwx1_1 : ∀ i : grid1.Coords, EltTy.bits .bf16 = 32 ∨ (Rect.block (s := S200x8) S200x8.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x8.size a ≤ S10000x8.size a
  hwx1_2 : ∀ i : grid1.Coords, EltTy.bits .f32 = 32 ∨ (Rect.block (s := S10000x8) S200x8.size (cc1_transform_2 i) (hinb1_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S200x10000_S10000x200_S200x200_1_0_0_1_n_n : DotDims S200x10000 S10000x200 S200x200 where
  lhsContracting := [1]
  rhsContracting := [0]
  lhsNonContracting := [0]
  rhsNonContracting := [1]
  lhsBatch := []
  rhsBatch := []
  wf := dot_S200x10000_S10000x200_S200x200_1_0_0_1_n_n_wf
def gather_S10000x200_S330000x1_S330000x200_1_0_n_n_0_1_1200 : GatherDims S10000x200 S330000x1 S330000x200 where
  offsetDims := [1]
  collapsedSliceDims := [0]
  operandBatchingDims := []
  startIndicesBatchingDims := []
  startIndexMap := [0]
  indexVectorDim := 1
  sliceSizes := ![1, 200]
  wf := gather_S10000x200_S330000x1_S330000x200_1_0_n_n_0_1_1200_wf
def scatter_S10000x200_S330000x1_S330000x200_1_0_0_1 : ScatterDims S10000x200 S330000x1 S330000x200 where
  updateWindowDims := [1]
  insertedWindowDims := [0]
  scatterDimsToOperandDims := [0]
  indexVectorDim := 1
  wf := scatter_S10000x200_S330000x1_S330000x200_1_0_0_1_wf
def dot_S200x200_S200x8_S200x8_1_0_0_1_n_n : DotDims S200x200 S200x8 S200x8 where
  lhsContracting := [1]
  rhsContracting := [0]
  lhsNonContracting := [0]
  rhsNonContracting := [1]
  lhsBatch := []
  rhsBatch := []
  wf := dot_S200x200_S200x8_S200x8_1_0_0_1_n_n_wf
def gather_S10000x8_S330000x1_S330000x8_1_0_n_n_0_1_18 : GatherDims S10000x8 S330000x1 S330000x8 where
  offsetDims := [1]
  collapsedSliceDims := [0]
  operandBatchingDims := []
  startIndicesBatchingDims := []
  startIndexMap := [0]
  indexVectorDim := 1
  sliceSizes := ![1, 8]
  wf := gather_S10000x8_S330000x1_S330000x8_1_0_n_n_0_1_18_wf
def scatter_S10000x8_S330000x1_S330000x8_1_0_0_1 : ScatterDims S10000x8 S330000x1 S330000x8 where
  updateWindowDims := [1]
  insertedWindowDims := [0]
  scatterDimsToOperandDims := [0]
  indexVectorDim := 1
  wf := scatter_S10000x8_S330000x1_S330000x8_1_0_0_1_wf
def gather_S10000x8_S2000x1_S2000x8_1_0_n_n_0_1_18 : GatherDims S10000x8 S2000x1 S2000x8 where
  offsetDims := [1]
  collapsedSliceDims := [0]
  operandBatchingDims := []
  startIndicesBatchingDims := []
  startIndexMap := [0]
  indexVectorDim := 1
  sliceSizes := ![1, 8]
  wf := gather_S10000x8_S2000x1_S2000x8_1_0_n_n_0_1_18_wf
def gather_S10000_S2000x1_S2000_n_0_n_n_0_1_1 : GatherDims S10000 S2000x1 S2000 where
  offsetDims := []
  collapsedSliceDims := [0]
  operandBatchingDims := []
  startIndicesBatchingDims := []
  startIndexMap := [0]
  indexVectorDim := 1
  sliceSizes := ![1]
  wf := gather_S10000_S2000x1_S2000_n_0_n_n_0_1_1_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S10000x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S200x200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S200x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S200x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S200x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S2x320000 : Shape := ⟨2, ![2, 320000]⟩
abbrev S320000 : Shape := ⟨1, ![320000]⟩
abbrev S2000 : Shape := ⟨1, ![2000]⟩
abbrev S10000 : Shape := ⟨1, ![10000]⟩
abbrev S10000x200 : Shape := ⟨2, ![10000, 200]⟩
abbrev S200 : Shape := ⟨1, ![200]⟩
abbrev S200x8 : Shape := ⟨2, ![200, 8]⟩
abbrev S8 : Shape := ⟨1, ![8]⟩
abbrev S1x320000 : Shape := ⟨2, ![1, 320000]⟩
abbrev S330000 : Shape := ⟨1, ![330000]⟩
abbrev S_ : Shape := ⟨0, ![]⟩
abbrev S330000x1 : Shape := ⟨2, ![330000, 1]⟩
abbrev S330000x200 : Shape := ⟨2, ![330000, 200]⟩
abbrev S1x200 : Shape := ⟨2, ![1, 200]⟩
abbrev S10000x8 : Shape := ⟨2, ![10000, 8]⟩
abbrev S330000x8 : Shape := ⟨2, ![330000, 8]⟩
abbrev S1x8 : Shape := ⟨2, ![1, 8]⟩
abbrev S2000x1 : Shape := ⟨2, ![2000, 1]⟩
abbrev S2000x8 : Shape := ⟨2, ![2000, 8]⟩

abbrev nBuf : Space → Nat
  | .hbm => 112
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S2x320000, .i32⟩
  | .hbm, ⟨2, _⟩ => ⟨S320000, .f32⟩
  | .hbm, ⟨3, _⟩ => ⟨S2000, .i32⟩
  | .hbm, ⟨4, _⟩ => ⟨S10000, .i32⟩
  | .hbm, ⟨5, _⟩ => ⟨S10000x200, .f32⟩
  | .hbm, ⟨6, _⟩ => ⟨S200, .f32⟩
  | .hbm, ⟨7, _⟩ => ⟨S200x8, .f32⟩
  | .hbm, ⟨8, _⟩ => ⟨S8, .f32⟩
  | .hbm, ⟨9, _⟩ => ⟨S10000, .i32⟩
  | .hbm, ⟨10, _⟩ => ⟨S1x320000, .i32⟩
  | .hbm, ⟨11, _⟩ => ⟨S320000, .i32⟩
  | .hbm, ⟨12, _⟩ => ⟨S330000, .i32⟩
  | .hbm, ⟨13, _⟩ => ⟨S1x320000, .i32⟩
  | .hbm, ⟨14, _⟩ => ⟨S320000, .i32⟩
  | .hbm, ⟨15, _⟩ => ⟨S330000, .i32⟩
  | .hbm, ⟨16, _⟩ => ⟨S_, .f32⟩
  | .hbm, ⟨17, _⟩ => ⟨S10000, .f32⟩
  | .hbm, ⟨18, _⟩ => ⟨S330000, .f32⟩
  | .hbm, ⟨19, _⟩ => ⟨S_, .f32⟩
  | .hbm, ⟨20, _⟩ => ⟨S10000, .f32⟩
  | .hbm, ⟨21, _⟩ => ⟨S330000x1, .i32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .i1⟩
  | .hbm, ⟨26, _⟩ => ⟨S10000, .f32⟩
  | .hbm, ⟨27, _⟩ => ⟨S_, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .i32⟩
  | .hbm, ⟨32, _⟩ => ⟨S330000, .i32⟩
  | .hbm, ⟨33, _⟩ => ⟨S330000, .i1⟩
  | .hbm, ⟨34, _⟩ => ⟨S_, .i32⟩
  | .hbm, ⟨35, _⟩ => ⟨S330000, .i32⟩
  | .hbm, ⟨36, _⟩ => ⟨S330000, .i32⟩
  | .hbm, ⟨37, _⟩ => ⟨S330000, .i32⟩
  | .hbm, ⟨38, _⟩ => ⟨S330000x1, .i32⟩
  | .hbm, ⟨39, _⟩ => ⟨S330000, .f32⟩
  | .hbm, ⟨40, _⟩ => ⟨S330000, .f32⟩
  | .hbm, ⟨41, _⟩ => ⟨S_, .i32⟩
  | .hbm, ⟨42, _⟩ => ⟨S330000, .i32⟩
  | .hbm, ⟨43, _⟩ => ⟨S330000, .i1⟩
  | .hbm, ⟨44, _⟩ => ⟨S_, .i32⟩
  | .hbm, ⟨45, _⟩ => ⟨S330000, .i32⟩
  | .hbm, ⟨46, _⟩ => ⟨S330000, .i32⟩
  | .hbm, ⟨47, _⟩ => ⟨S330000, .i32⟩
  | .hbm, ⟨48, _⟩ => ⟨S330000x1, .i32⟩
  | .hbm, ⟨49, _⟩ => ⟨S330000, .f32⟩
  | .hbm, ⟨50, _⟩ => ⟨S330000, .f32⟩
  | .hbm, ⟨51, _⟩ => ⟨S10000x200, .f32⟩
  | .hbm, ⟨52, _⟩ => ⟨S_, .i32⟩
  | .hbm, ⟨53, _⟩ => ⟨S330000, .i32⟩
  | .hbm, ⟨54, _⟩ => ⟨S330000, .i1⟩
  | .hbm, ⟨55, _⟩ => ⟨S_, .i32⟩
  | .hbm, ⟨56, _⟩ => ⟨S330000, .i32⟩
  | .hbm, ⟨57, _⟩ => ⟨S330000, .i32⟩
  | .hbm, ⟨58, _⟩ => ⟨S330000, .i32⟩
  | .hbm, ⟨59, _⟩ => ⟨S330000x1, .i32⟩
  | .hbm, ⟨60, _⟩ => ⟨S330000x200, .f32⟩
  | .hbm, ⟨61, _⟩ => ⟨S330000x1, .f32⟩
  | .hbm, ⟨62, _⟩ => ⟨S330000x200, .f32⟩
  | .hbm, ⟨63, _⟩ => ⟨S330000x200, .f32⟩
  | .hbm, ⟨64, _⟩ => ⟨S_, .f32⟩
  | .hbm, ⟨65, _⟩ => ⟨S10000x200, .f32⟩
  | .hbm, ⟨66, _⟩ => ⟨S330000x1, .i32⟩
  | .hbm, ⟨67, _⟩ => ⟨S10000x200, .f32⟩
  | .hbm, ⟨68, _⟩ => ⟨S1x200, .f32⟩
  | .hbm, ⟨69, _⟩ => ⟨S10000x200, .f32⟩
  | .hbm, ⟨70, _⟩ => ⟨S10000x200, .f32⟩
  | .hbm, ⟨71, _⟩ => ⟨S_, .f32⟩
  | .hbm, ⟨72, _⟩ => ⟨S10000x200, .f32⟩
  | .hbm, ⟨73, _⟩ => ⟨S10000x200, .f32⟩
  | .hbm, ⟨74, _⟩ => ⟨S10000x8, .f32⟩
  | .hbm, ⟨75, _⟩ => ⟨S_, .i32⟩
  | .hbm, ⟨76, _⟩ => ⟨S330000, .i32⟩
  | .hbm, ⟨77, _⟩ => ⟨S330000, .i1⟩
  | .hbm, ⟨78, _⟩ => ⟨S_, .i32⟩
  | .hbm, ⟨79, _⟩ => ⟨S330000, .i32⟩
  | .hbm, ⟨80, _⟩ => ⟨S330000, .i32⟩
  | .hbm, ⟨81, _⟩ => ⟨S330000, .i32⟩
  | .hbm, ⟨82, _⟩ => ⟨S330000x1, .i32⟩
  | .hbm, ⟨83, _⟩ => ⟨S330000x8, .f32⟩
  | .hbm, ⟨84, _⟩ => ⟨S330000x1, .f32⟩
  | .hbm, ⟨85, _⟩ => ⟨S330000x8, .f32⟩
  | .hbm, ⟨86, _⟩ => ⟨S330000x8, .f32⟩
  | .hbm, ⟨87, _⟩ => ⟨S_, .f32⟩
  | .hbm, ⟨88, _⟩ => ⟨S10000x8, .f32⟩
  | .hbm, ⟨89, _⟩ => ⟨S330000x1, .i32⟩
  | .hbm, ⟨90, _⟩ => ⟨S10000x8, .f32⟩
  | .hbm, ⟨91, _⟩ => ⟨S1x8, .f32⟩
  | .hbm, ⟨92, _⟩ => ⟨S10000x8, .f32⟩
  | .hbm, ⟨93, _⟩ => ⟨S10000x8, .f32⟩
  | .hbm, ⟨94, _⟩ => ⟨S_, .i32⟩
  | .hbm, ⟨95, _⟩ => ⟨S2000, .i32⟩
  | .hbm, ⟨96, _⟩ => ⟨S2000, .i1⟩
  | .hbm, ⟨97, _⟩ => ⟨S_, .i32⟩
  | .hbm, ⟨98, _⟩ => ⟨S2000, .i32⟩
  | .hbm, ⟨99, _⟩ => ⟨S2000, .i32⟩
  | .hbm, ⟨100, _⟩ => ⟨S2000, .i32⟩
  | .hbm, ⟨101, _⟩ => ⟨S2000x1, .i32⟩
  | .hbm, ⟨102, _⟩ => ⟨S2000x8, .f32⟩
  | .hbm, ⟨103, _⟩ => ⟨S_, .i32⟩
  | .hbm, ⟨104, _⟩ => ⟨S2000, .i32⟩
  | .hbm, ⟨105, _⟩ => ⟨S2000, .i1⟩
  | .hbm, ⟨106, _⟩ => ⟨S_, .i32⟩
  | .hbm, ⟨107, _⟩ => ⟨S2000, .i32⟩
  | .hbm, ⟨108, _⟩ => ⟨S2000, .i32⟩
  | .hbm, ⟨109, _⟩ => ⟨S2000, .i32⟩
  | .hbm, ⟨110, _⟩ => ⟨S2000x1, .i32⟩
  | .hbm, ⟨111, _⟩ => ⟨S2000, .i32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_14 : Ref sig .tc := ⟨.hbm, 103, rfl⟩
abbrev main_v74 : Ref sig .tc := ⟨.hbm, 104, rfl⟩
abbrev main_v75 : Ref sig .tc := ⟨.hbm, 105, rfl⟩
abbrev main_c_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S330000x1_S330000x200_0_1 : S330000x1.BroadcastsInDim S330000x200 (![0, 1] : Fin 2 → Fin S330000x200.rank)
  bcast_S_S10000x200 : S_.BroadcastsInDim S10000x200 (![] : Fin 0 → Fin S10000x200.rank)
  bcast_S200_S1x200_1 : S200.BroadcastsInDim S1x200 (![1] : Fin 1 → Fin S1x200.rank)
  bcast_S1x200_S10000x200_0_1 : S1x200.BroadcastsInDim S10000x200 (![0, 1] : Fin 2 → Fin S10000x200.rank)
  bcast_S330000x1_S330000x8_0_1 : S330000x1.BroadcastsInDim S330000x8 (![0, 1] : Fin 2 → Fin S330000x8.rank)
  bcast_S_S10000x8 : S_.BroadcastsInDim S10000x8 (![] : Fin 0 → Fin S10000x8.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  bcast_S_S2000 : S_.BroadcastsInDim S2000 (![] : Fin 0 → Fin S2000.rank)
  bcast_S2000_S2000x1_0 : S2000.BroadcastsInDim S2000x1 (![0] : Fin 1 → Fin S2000x1.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x10000_S10000x200_S10000x200_1_0_0_1_n_n_wf : DotDims.WF S10000x10000 S10000x200 S10000x200 [1] [0] [0] [1] [] []
  gather_S10000x200_S330000x1_S330000x200_1_0_n_n_0_1_1200_wf : GatherDims.WF S10000x200 S330000x1 S330000x200 [1] [0] [] [0] [] 1 ![1, 200]
  scatter_S10000x200_S330000x1_S330000x200_1_0_0_1_wf : ScatterDims.WF S10000x200 S330000x1 S330000x200 [1] [0] [0] 1
  dot_S10000x200_S200x8_S10000x8_1_0_0_1_n_n_wf : DotDims.WF S10000x200 S200x8 S10000x8 [1] [0] [0] [1] [] []
  gather_S10000x8_S330000x1_S330000x8_1_0_n_n_0_1_18_wf : GatherDims.WF S10000x8 S330000x1 S330000x8 [1] [0] [] [0] [] 1 ![1, 8]
  scatter_S10000x8_S330000x1_S330000x8_1_0_0_1_wf : ScatterDims.WF S10000x8 S330000x1 S330000x8 [1] [0] [0] 1
  gather_S10000x8_S2000x1_S2000x8_1_0_n_n_0_1_18_wf : GatherDims.WF S10000x8 S2000x1 S2000x8 [1] [0] [] [0] [] 1 ![1, 8]
  gather_S10000_S2000x1_S2000_n_0_n_n_0_1_1_wf : GatherDims.WF S10000 S2000x1 S2000 [] [0] [] [0] [] 1 ![1]

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x10000_S10000x200_S10000x200_1_0_0_1_n_n : DotDims S10000x10000 S10000x200 S10000x200 where
  lhsContracting := [1]
  rhsContracting := [0]
  lhsNonContracting := [0]
  rhsNonContracting := [1]
  lhsBatch := []
  rhsBatch := []
  wf := dot_S10000x10000_S10000x200_S10000x200_1_0_0_1_n_n_wf
def gather_S10000x200_S330000x1_S330000x200_1_0_n_n_0_1_1200 : GatherDims S10000x200 S330000x1 S330000x200 where
  offsetDims := [1]
  collapsedSliceDims := [0]
  operandBatchingDims := []
  startIndicesBatchingDims := []
  startIndexMap := [0]
  indexVectorDim := 1
  sliceSizes := ![1, 200]
  wf := gather_S10000x200_S330000x1_S330000x200_1_0_n_n_0_1_1200_wf
def scatter_S10000x200_S330000x1_S330000x200_1_0_0_1 : ScatterDims S10000x200 S330000x1 S330000x200 where
  updateWindowDims := [1]
  insertedWindowDims := [0]
  scatterDimsToOperandDims := [0]
  indexVectorDim := 1
  wf := scatter_S10000x200_S330000x1_S330000x200_1_0_0_1_wf
def dot_S10000x200_S200x8_S10000x8_1_0_0_1_n_n : DotDims S10000x200 S200x8 S10000x8 where
  lhsContracting := [1]
  rhsContracting := [0]
  lhsNonContracting := [0]
  rhsNonContracting := [1]
  lhsBatch := []
  rhsBatch := []
  wf := dot_S10000x200_S200x8_S10000x8_1_0_0_1_n_n_wf
def gather_S10000x8_S330000x1_S330000x8_1_0_n_n_0_1_18 : GatherDims S10000x8 S330000x1 S330000x8 where
  offsetDims := [1]
  collapsedSliceDims := [0]
  operandBatchingDims := []
  startIndicesBatchingDims := []
  startIndexMap := [0]
  indexVectorDim := 1
  sliceSizes := ![1, 8]
  wf := gather_S10000x8_S330000x1_S330000x8_1_0_n_n_0_1_18_wf
def scatter_S10000x8_S330000x1_S330000x8_1_0_0_1 : ScatterDims S10000x8 S330000x1 S330000x8 where
  updateWindowDims := [1]
  insertedWindowDims := [0]
  scatterDimsToOperandDims := [0]
  indexVectorDim := 1
  wf := scatter_S10000x8_S330000x1_S330000x8_1_0_0_1_wf
def gather_S10000x8_S2000x1_S2000x8_1_0_n_n_0_1_18 : GatherDims S10000x8 S2000x1 S2000x8 where
  offsetDims := [1]
  collapsedSliceDims := [0]
  operandBatchingDims := []
  startIndicesBatchingDims := []
  startIndexMap := [0]
  indexVectorDim := 1
  sliceSizes := ![1, 8]
  wf := gather_S10000x8_S2000x1_S2000x8_1_0_n_n_0_1_18_wf
def gather_S10000_S2000x1_S2000_n_0_n_n_0_1_1 : GatherDims S10000 S2000x1 S2000 where
  offsetDims := []
  collapsedSliceDims := [0]
  operandBatchingDims := []
  startIndicesBatchingDims := []
  startIndexMap := [0]
  indexVectorDim := 1
  sliceSizes := ![1]
  wf := gather_S10000_S2000x1_S2000_n_0_n_n_0_1_1_wf

class Facts : Prop extends Facts₀ where

variable [Facts]
-- ==== Proof.KernelRun.lean ====
/-
  The idealized kernel program's run with its two results named.  @main is nine segments: three stretches of host
  operations, the first row-tiled matrix product, three more stretches, the second row-tiled matrix product, and a last
  stretch.  Every weakly fair execution ends with each unscoped buffer at the contents the fold of those segments leaves
  (`Gen.W9`): here that is read at the two result buffers as well as at the nine arguments.
-/
import proofs.«105357_j74088185856644_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel program terminates without a fault; the two result buffers
    end at the last boundary's contents and the argument arrays as launched. -/
theorem run : θ_run defs (onTc (τ := τ) (main (F := F))) ⟨m, fun _ => 0, ρ⟩ (fun r => ∀ c : Dev nD,
      r.2.mem ((c.tc : Thread nD τ).loc main_v75) = W9 m ρ c (Proc.devRef .tc main_v75)
      ∧ r.2.mem ((c.tc : Thread nD τ).loc main_v82) = W9 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v75 (by decide)),
       h c _ (mem_uc main_v82 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunVal

end
-- ==== Proof.StagesK.lean ====
/-
  The host-side stages of the idealized kernel program as pure functions: both programs apply the same host operations around their two dense products, so each stretch is named once here and never opened again.
-/
import proofs.«105357_j74088185856644_1_alg».proof.Proof.Gen.KernelIdeal

noncomputable section

namespace Cert.KernelIdeal.Stages

open Cert.KernelIdeal Cert.KernelIdeal.Gen Idealize.ShloMosaic Idealize.ShloMosaic.TcCoe Idealize.SL.Sem

variable {F : FTy → Type} [FloatOps F]

/-- The source node of each of the 330000 edges: the first row of the edge list followed by the 10000 self loops. -/
def rowOf (x1 : (⟨S2x320000, .i32⟩ : BufTy).Contents (Elt F)) : (⟨S330000, .i32⟩ : BufTy).Contents (Elt F) :=
  concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0

/-- The target node of each edge: the second row of the edge list followed by the self loops. -/
def colOf (x1 : (⟨S2x320000, .i32⟩ : BufTy).Contents (Elt F)) : (⟨S330000, .i32⟩ : BufTy).Contents (Elt F) :=
  concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0

/-- The symmetric normalisation of the edge weights: with w the weights followed by ones and deg the weights summed
    into their target nodes, dis = deg^(-1/2) where deg > 0 and 0 elsewhere, and the coefficient of an edge is
    dis[source] · w · dis[target]. -/
def normOf (x1 : (⟨S2x320000, .i32⟩ : BufTy).Contents (Elt F)) (x2 : (⟨S320000, .f32⟩ : BufTy).Contents (Elt F)) : (⟨S330000, .f32⟩ : BufTy).Contents (Elt F) :=
  mulf (mulf (Host.gather gather_S10000_S330000x1_S330000_n_0_n_n_0_1_1 (select (cmpf .ogt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (concatenate S330000 0 [⟨S320000, x2⟩, ⟨S10000, (broadcastInDim S10000 ![] bcast_S_S10000 (constant S_ .f32 0x3F800000#32))⟩] concatenates_S320000_S10000_S330000_d0)) (broadcastInDim S10000 ![] bcast_S_S10000 (constant S_ .f32 0x00000000#32))) (Host.rsqrt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (concatenate S330000 0 [⟨S320000, x2⟩, ⟨S10000, (broadcastInDim S10000 ![] bcast_S_S10000 (constant S_ .f32 0x3F800000#32))⟩] concatenates_S320000_S10000_S330000_d0))) (broadcastInDim S10000 ![] bcast_S_S10000 (id (constant S_ .f32 0x00000000#32)))) (broadcastInDim S330000x1 ![0] bcast_S330000_S330000x1_0 (select (cmpi .slt (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0)))) (concatenate S330000 0 [⟨S320000, x2⟩, ⟨S10000, (broadcastInDim S10000 ![] bcast_S_S10000 (constant S_ .f32 0x3F800000#32))⟩] concatenates_S320000_S10000_S330000_d0)) (Host.gather gather_S10000_S330000x1_S330000_n_0_n_n_0_1_1 (select (cmpf .ogt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (concatenate S330000 0 [⟨S320000, x2⟩, ⟨S10000, (broadcastInDim S10000 ![] bcast_S_S10000 (constant S_ .f32 0x3F800000#32))⟩] concatenates_S320000_S10000_S330000_d0)) (broadcastInDim S10000 ![] bcast_S_S10000 (constant S_ .f32 0x00000000#32))) (Host.rsqrt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (concatenate S330000 0 [⟨S320000, x2⟩, ⟨S10000, (broadcastInDim S10000 ![] bcast_S_S10000 (constant S_ .f32 0x3F800000#32))⟩] concatenates_S320000_S10000_S330000_d0))) (broadcastInDim S10000 ![] bcast_S_S10000 (id (constant S_ .f32 0x00000000#32)))) (broadcastInDim S330000x1 ![0] bcast_S330000_S330000x1_0 (select (cmpi .slt (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0))))

/-- The first graph layer after its dense product `h1`: gather the source rows of `h1`, scale each by its edge's
    coefficient, sum into the target rows, add the bias and take the maximum with zero. -/
def layer1 (row col : (⟨S330000, .i32⟩ : BufTy).Contents (Elt F)) (nrm : (⟨S330000, .f32⟩ : BufTy).Contents (Elt F)) (h1 : (⟨S10000x200, .f32⟩ : BufTy).Contents (Elt F)) (x6 : (⟨S200, .f32⟩ : BufTy).Contents (Elt F)) : (⟨S10000x200, .f32⟩ : BufTy).Contents (Elt F) :=
  maximumf (addf (Host.scatterAdd scatter_S10000x200_S330000x1_S330000x200_1_0_0_1 (broadcastInDim S10000x200 ![] bcast_S_S10000x200 (constant S_ .f32 0x00000000#32)) (broadcastInDim S330000x1 ![0] bcast_S330000_S330000x1_0 (col)) (mulf (Host.gather gather_S10000x200_S330000x1_S330000x200_1_0_n_n_0_1_1200 (h1) (broadcastInDim S330000x1 ![0] bcast_S330000_S330000x1_0 (select (cmpi .slt (row) (broadcastInDim S330000 ![] bcast_S_S330000 (constantI S_ 32 0#32))) (addi (row) (broadcastInDim S330000 ![] bcast_S_S330000 (constantI S_ 32 10000#32))) (row)))) (broadcastInDim S330000x200 ![0, 1] bcast_S330000x1_S330000x200_0_1 (broadcastInDim S330000x1 ![0] bcast_S330000_S330000x1_0 (nrm))))) (broadcastInDim S10000x200 ![0, 1] bcast_S1x200_S10000x200_0_1 (broadcastInDim S1x200 ![1] bcast_S200_S1x200_1 x6))) (broadcastInDim S10000x200 ![] bcast_S_S10000x200 (constant S_ .f32 0x00000000#32))

/-- The second graph layer after its dense product `h2` (gather, scale, sum into targets, add the bias), read at the
    2000 selected rows. -/
def layer2 (row col : (⟨S330000, .i32⟩ : BufTy).Contents (Elt F)) (nrm : (⟨S330000, .f32⟩ : BufTy).Contents (Elt F)) (h2 : (⟨S10000x8, .f32⟩ : BufTy).Contents (Elt F)) (x8 : (⟨S8, .f32⟩ : BufTy).Contents (Elt F)) (x3 : (⟨S2000, .i32⟩ : BufTy).Contents (Elt F)) : (⟨S2000x8, .f32⟩ : BufTy).Contents (Elt F) :=
  Host.gather gather_S10000x8_S2000x1_S2000x8_1_0_n_n_0_1_18 (addf (Host.scatterAdd scatter_S10000x8_S330000x1_S330000x8_1_0_0_1 (broadcastInDim S10000x8 ![] bcast_S_S10000x8 (constant S_ .f32 0x00000000#32)) (broadcastInDim S330000x1 ![0] bcast_S330000_S330000x1_0 (col)) (mulf (Host.gather gather_S10000x8_S330000x1_S330000x8_1_0_n_n_0_1_18 (h2) (broadcastInDim S330000x1 ![0] bcast_S330000_S330000x1_0 (select (cmpi .slt (row) (broadcastInDim S330000 ![] bcast_S_S330000 (constantI S_ 32 0#32))) (addi (row) (broadcastInDim S330000 ![] bcast_S_S330000 (constantI S_ 32 10000#32))) (row)))) (broadcastInDim S330000x8 ![0, 1] bcast_S330000x1_S330000x8_0_1 (broadcastInDim S330000x1 ![0] bcast_S330000_S330000x1_0 (nrm))))) (broadcastInDim S10000x8 ![0, 1] bcast_S1x8_S10000x8_0_1 (broadcastInDim S1x8 ![1] bcast_S8_S1x8_1 x8))) (broadcastInDim S2000x1 ![0] bcast_S2000_S2000x1_0 (select (cmpi .slt x3 (broadcastInDim S2000 ![] bcast_S_S2000 (constantI S_ 32 0#32))) (addi x3 (broadcastInDim S2000 ![] bcast_S_S2000 (constantI S_ 32 10000#32))) x3))

/-- The labels at the 2000 selected rows. -/
def labelsOf (x4 : (⟨S10000, .i32⟩ : BufTy).Contents (Elt F)) (x3 : (⟨S2000, .i32⟩ : BufTy).Contents (Elt F)) : (⟨S2000, .i32⟩ : BufTy).Contents (Elt F) :=
  Host.gather gather_S10000_S2000x1_S2000_n_0_n_n_0_1_1 x4 (broadcastInDim S2000x1 ![0] bcast_S2000_S2000x1_0 (select (cmpi .slt x3 (broadcastInDim S2000 ![] bcast_S_S2000 (constantI S_ 32 0#32))) (addi x3 (broadcastInDim S2000 ![] bcast_S_S2000 (constantI S_ 32 10000#32))) x3))

end Cert.KernelIdeal.Stages

end
-- ==== Proof.KernelWalk.lean ====
/-
  The idealized kernel program's buffer contents, boundary by boundary, in terms of the stage functions: before the
  first dense product the edge sources, targets and coefficients and the rounded first weight matrix; after it the
  first graph layer and the rounded second weight matrix; after the second dense product the second graph layer read
  at the selected rows, and the labels.  Each stretch of host operations is walked once.
-/
import proofs.«105357_j74088185856644_1_alg».proof.Proof.Gen.KernelIdeal.Frame
import proofs.«105357_j74088185856644_1_alg».proof.Proof.StagesK

set_option maxRecDepth 16384

noncomputable section

namespace Cert.KernelIdeal.Walk

open Cert.KernelIdeal Cert.KernelIdeal.Gen Cert.KernelIdeal.Stages
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first dense product -/

theorem A_row (c : Dev nD) : W3 m ρ c (Proc.devRef .tc main_v3) = rowOf (m ((c : Thread nD τ).loc main_arg1)) := by
  show StableHlo.after hostOps0_2 (StableHlo.after hostOps0_1 (StableHlo.after hostOps0 (W0 m ρ c))) _ = _
  after_results_simp <;> rfl
theorem A_col (c : Dev nD) : W3 m ρ c (Proc.devRef .tc main_v6) = colOf (m ((c : Thread nD τ).loc main_arg1)) := by
  show StableHlo.after hostOps0_2 (StableHlo.after hostOps0_1 (StableHlo.after hostOps0 (W0 m ρ c))) _ = _
  after_results_simp <;> rfl
set_option maxHeartbeats 4000000 in
theorem A_nrm (c : Dev nD) : W3 m ρ c (Proc.devRef .tc main_v31) = normOf (m ((c : Thread nD τ).loc main_arg1)) (m ((c : Thread nD τ).loc main_arg2)) := by
  show StableHlo.after hostOps0_2 (StableHlo.after hostOps0_1 (StableHlo.after hostOps0 (W0 m ρ c))) _ = _
  after_results_simp <;> rfl
theorem A_w1 (c : Dev nD) : W3 m ρ c (Proc.devRef .tc main_v32) = truncf .bf16 (m ((c : Thread nD τ).loc main_arg5)) bitsLt_bf16_f32 := by
  show StableHlo.after hostOps0_2 (StableHlo.after hostOps0_1 (StableHlo.after hostOps0 (W0 m ρ c))) _ = _
  after_results_simp <;> rfl
theorem A_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) _ = _
  after_results_simp <;> rfl
theorem A_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) _ = _
  after_results_simp <;> rfl
theorem A_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) _ = _
  after_results_simp <;> rfl
theorem A_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) _ = _
  after_results_simp <;> rfl
theorem A_arg7 (c : Dev nD) : W3 m ρ c (Proc.devRef .tc main_arg7) = (m ((c : Thread nD τ).loc main_arg7)) := by
  show StableHlo.after hostOps0_2 (StableHlo.after hostOps0_1 (StableHlo.after hostOps0 (W0 m ρ c))) _ = _
  after_results_simp <;> rfl
theorem A_arg8 (c : Dev nD) : W3 m ρ c (Proc.devRef .tc main_arg8) = (m ((c : Thread nD τ).loc main_arg8)) := by
  show StableHlo.after hostOps0_2 (StableHlo.after hostOps0_1 (StableHlo.after hostOps0 (W0 m ρ c))) _ = _
  after_results_simp <;> rfl

/-! ## Across the first dense product: only its three arrays change -/
theorem B_main_v3 (c : Dev nD) : W4 m ρ c (Proc.devRef .tc main_v3) = W3 m ρ c (Proc.devRef .tc main_v3) := W4_of_ne m ρ c main_v3 (by decide)
theorem B_main_v6 (c : Dev nD) : W4 m ρ c (Proc.devRef .tc main_v6) = W3 m ρ c (Proc.devRef .tc main_v6) := W4_of_ne m ρ c main_v6 (by decide)
theorem B_main_v31 (c : Dev nD) : W4 m ρ c (Proc.devRef .tc main_v31) = W3 m ρ c (Proc.devRef .tc main_v31) := W4_of_ne m ρ c main_v31 (by decide)
theorem B_main_arg3 (c : Dev nD) : W4 m ρ c (Proc.devRef .tc main_arg3) = W3 m ρ c (Proc.devRef .tc main_arg3) := W4_of_ne m ρ c main_arg3 (by decide)
theorem B_main_arg4 (c : Dev nD) : W4 m ρ c (Proc.devRef .tc main_arg4) = W3 m ρ c (Proc.devRef .tc main_arg4) := W4_of_ne m ρ c main_arg4 (by decide)
theorem B_main_arg6 (c : Dev nD) : W4 m ρ c (Proc.devRef .tc main_arg6) = W3 m ρ c (Proc.devRef .tc main_arg6) := W4_of_ne m ρ c main_arg6 (by decide)
theorem B_main_arg7 (c : Dev nD) : W4 m ρ c (Proc.devRef .tc main_arg7) = W3 m ρ c (Proc.devRef .tc main_arg7) := W4_of_ne m ρ c main_arg7 (by decide)
theorem B_main_arg8 (c : Dev nD) : W4 m ρ c (Proc.devRef .tc main_arg8) = W3 m ρ c (Proc.devRef .tc main_arg8) := W4_of_ne m ρ c main_arg8 (by decide)
theorem B_out (c : Dev nD) : W4 m ρ c (Proc.devRef .tc main_v33) = (dat0 (V3 m ρ) c).arrAt 2 cfg0.N := W4_arr m ρ c 2

/-! ## Between the two dense products -/

set_option maxHeartbeats 4000000 in
theorem C_h (c : Dev nD) : W7 m ρ c (Proc.devRef .tc main_v50)
    = layer1 (W4 m ρ c (Proc.devRef .tc main_v3)) (W4 m ρ c (Proc.devRef .tc main_v6)) (W4 m ρ c (Proc.devRef .tc main_v31)) (W4 m ρ c (Proc.devRef .tc main_v33)) (W4 m ρ c (Proc.devRef .tc main_arg6)) := by
  show StableHlo.after hostOps1_2 (StableHlo.after hostOps1_1 (StableHlo.after hostOps1 (W4 m ρ c))) _ = _
  after_results_simp <;> rfl
theorem C_w2 (c : Dev nD) : W7 m ρ c (Proc.devRef .tc main_v51) = truncf .bf16 (W4 m ρ c (Proc.devRef .tc main_arg7)) bitsLt_bf16_f32 := by
  show StableHlo.after hostOps1_2 (StableHlo.after hostOps1_1 (StableHlo.after hostOps1 (W4 m ρ c))) _ = _
  after_results_simp <;> rfl
theorem C_main_v3 (c : Dev nD) : W7 m ρ c (Proc.devRef .tc main_v3) = W4 m ρ c (Proc.devRef .tc main_v3) := by
  show StableHlo.after hostOps1_2 (StableHlo.after hostOps1_1 (StableHlo.after hostOps1 (W4 m ρ c))) _ = _
  after_results_simp <;> rfl
theorem C_main_v6 (c : Dev nD) : W7 m ρ c (Proc.devRef .tc main_v6) = W4 m ρ c (Proc.devRef .tc main_v6) := by
  show StableHlo.after hostOps1_2 (StableHlo.after hostOps1_1 (StableHlo.after hostOps1 (W4 m ρ c))) _ = _
  after_results_simp <;> rfl
theorem C_main_v31 (c : Dev nD) : W7 m ρ c (Proc.devRef .tc main_v31) = W4 m ρ c (Proc.devRef .tc main_v31) := by
  show StableHlo.after hostOps1_2 (StableHlo.after hostOps1_1 (StableHlo.after hostOps1 (W4 m ρ c))) _ = _
  after_results_simp <;> rfl
theorem C_main_arg3 (c : Dev nD) : W7 m ρ c (Proc.devRef .tc main_arg3) = W4 m ρ c (Proc.devRef .tc main_arg3) := by
  show StableHlo.after hostOps1_2 (StableHlo.after hostOps1_1 (StableHlo.after hostOps1 (W4 m ρ c))) _ = _
  after_results_simp <;> rfl
theorem C_main_arg4 (c : Dev nD) : W7 m ρ c (Proc.devRef .tc main_arg4) = W4 m ρ c (Proc.devRef .tc main_arg4) := by
  show StableHlo.after hostOps1_2 (StableHlo.after hostOps1_1 (StableHlo.after hostOps1 (W4 m ρ c))) _ = _
  after_results_simp <;> rfl
theorem C_main_arg8 (c : Dev nD) : W7 m ρ c (Proc.devRef .tc main_arg8) = W4 m ρ c (Proc.devRef .tc main_arg8) := by
  show StableHlo.after hostOps1_2 (StableHlo.after hostOps1_1 (StableHlo.after hostOps1 (W4 m ρ c))) _ = _
  after_results_simp <;> rfl

/-! ## Across the second dense product -/
theorem D_main_v3 (c : Dev nD) : W8 m ρ c (Proc.devRef .tc main_v3) = W7 m ρ c (Proc.devRef .tc main_v3) := W8_of_ne m ρ c main_v3 (by decide)
theorem D_main_v6 (c : Dev nD) : W8 m ρ c (Proc.devRef .tc main_v6) = W7 m ρ c (Proc.devRef .tc main_v6) := W8_of_ne m ρ c main_v6 (by decide)
theorem D_main_v31 (c : Dev nD) : W8 m ρ c (Proc.devRef .tc main_v31) = W7 m ρ c (Proc.devRef .tc main_v31) := W8_of_ne m ρ c main_v31 (by decide)
theorem D_main_arg3 (c : Dev nD) : W8 m ρ c (Proc.devRef .tc main_arg3) = W7 m ρ c (Proc.devRef .tc main_arg3) := W8_of_ne m ρ c main_arg3 (by decide)
theorem D_main_arg4 (c : Dev nD) : W8 m ρ c (Proc.devRef .tc main_arg4) = W7 m ρ c (Proc.devRef .tc main_arg4) := W8_of_ne m ρ c main_arg4 (by decide)
theorem D_main_arg8 (c : Dev nD) : W8 m ρ c (Proc.devRef .tc main_arg8) = W7 m ρ c (Proc.devRef .tc main_arg8) := W8_of_ne m ρ c main_arg8 (by decide)
theorem D_out (c : Dev nD) : W8 m ρ c (Proc.devRef .tc main_v52) = (dat1 (V7 m ρ) c).arrAt 2 cfg1.N := W8_arr m ρ c 2

/-! ## After the second dense product -/

set_option maxHeartbeats 4000000 in
theorem E_pred (c : Dev nD) : W9 m ρ c (Proc.devRef .tc main_v75)
    = layer2 (W8 m ρ c (Proc.devRef .tc main_v3)) (W8 m ρ c (Proc.devRef .tc main_v6)) (W8 m ρ c (Proc.devRef .tc main_v31)) (W8 m ρ c (Proc.devRef .tc main_v52)) (W8 m ρ c (Proc.devRef .tc main_arg8)) (W8 m ρ c (Proc.devRef .tc main_arg3)) := by
  show StableHlo.after hostOps2 (W8 m ρ c) _ = _
  after_results_simp <;> rfl
theorem E_lab (c : Dev nD) : W9 m ρ c (Proc.devRef .tc main_v82) = labelsOf (W8 m ρ c (Proc.devRef .tc main_arg4)) (W8 m ρ c (Proc.devRef .tc main_arg3)) := by
  show StableHlo.after hostOps2 (W8 m ρ c) _ = _
  after_results_simp <;> rfl

end Cert.KernelIdeal.Walk

end
-- ==== Proof.LibMatmulNN.lean ====
/-
  A matrix product whose left operand is contracted on its SECOND axis and whose right operand on its FIRST (an M×K
  array times a K×N array, the plain row-by-column product), accumulated into zero, read at one entry of the result on
  the extended reals: entry (i, j) is the sum over k of left (i, k) · right (k, j).  Every extent and both operand
  formats are arbitrary; the dimension record is any record with that contraction, its structural facts passed as
  hypotheses (four coordinate facts of its index maps, the contraction's rank and size), each closed by rfl or by
  unfolding at a printed record.
-/
import Idealize.ShloMosaic.PureOps.Ideal.Laws
import Idealize.ShloMosaic.Lib.ValueIdx

noncomputable section

open scoped BigOperators

namespace Cert.MatmulNN

open Idealize.ShloMosaic Idealize.ShloMosaic.ValueIdx

/-- The left operand contracted on its SECOND axis and the right on its FIRST, into a zero accumulator:
    out (i, j) = Σ k, A (i, k) · B (k, j). -/
theorem matmul_nn_apply {M K N : ℕ} {φ₁ φ₂ : FTy} (d : DotDims ⟨2, ![M, K]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (A : FVec Ideal ⟨2, ![M, K]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 i k) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.MatmulNN

end
-- ==== Proof.RegionArr.lean ====
/-
  The two row-tiled matrix products of the program, each read off its result array after its region, entry by entry.

  Region 0 multiplies a 10000×10000 array by a 10000×200 array; region 1 multiplies a 10000×200 array by a 200×8
  array.  In both, grid point t takes rows 200·t … 200·t + 199 of the left array and the whole right array, and
  writes the 200 corresponding rows of the result.  A point's body converts its left block to a narrower format (the
  identity on the extended reals), casts blocks to their own shapes (the identity), and accumulates the plain
  row-by-column product into zero: entry (p, q) of its block is Σ k, left (p, k) · right (k, q).  A block's element
  sits in its array at block index × block size + its coordinate inside the block, and only the row index of the left
  and result blocks moves with the point, so the block that point t writes is rows 200·t … of the whole product of the
  two arrays as the region finds them.  The 50 blocks tile the result (row r lies in the block of the point at block
  row r / 200), hence after the region the result array is the whole product:
  entry (p, q) = Σ k, left (p, k) · right (k, q).
-/
import proofs.«105357_j74088185856644_1_alg».proof.Proof.Gen.KernelIdeal.Frame
import proofs.«105357_j74088185856644_1_alg».proof.Proof.LibMatmulNN
import Idealize.ShloMosaic.Lib.Pipeline.Value
import Idealize.ShloMosaic.Lib.ValueIdx
import Idealize.ShloMosaic.PureOps.Ideal.Laws

noncomputable section

open scoped BigOperators

namespace Cert.KernelIdeal.RegionArr

open Cert.KernelIdeal Cert.KernelIdeal.Gen Idealize.ShloMosaic Idealize.ShloMosaic.TcCoe Idealize.SL.Sem
open Idealize.ShloMosaic.ValueIdx
open Idealize.ShloMosaic.Pipeline (Dat)

/-! ## Region 0: a 10000×10000 array times a 10000×200 array, 200 rows at a time -/

theorem zeros2 : (![0, 0] : Fin 2 → Nat) = fun _ => 0 := funext fun a => by fin_cases a <;> rfl

/-- The whole product, entry by entry: entry (r, s) is the sum over k of left (r, k) · right (k, s). -/
def prod0 (x : S10000x10000.Idx → EReal) (w : S10000x200.Idx → EReal) : S10000x200.Idx → EReal :=
  fun i => ∑ k : Fin 10000, x (ix2 (n0 := 10000) (i 0) k) * w (ix2 (n1 := 200) k (i 1))

/-- The product at an index whose two coordinates are known. -/
theorem prod0_at (x : S10000x10000.Idx → EReal) (w : S10000x200.Idx → EReal) (i : S10000x200.Idx)
    (r : Fin 10000) (s : Fin 200) (hr : (i 0).val = r.val) (hs : (i 1).val = s.val) :
    prod0 x w i = ∑ k : Fin 10000, x (ix2 r k) * w (ix2 k s) := by
  have e : i = ix2 r s := funext fun a => Fin.ext (by
    match a with
    | ⟨0, _⟩ => exact hr
    | ⟨1, _⟩ => exact hs)
  subst e; rfl

/-- The body's payload at entry (p, q) of its 200×200 result: the row p of the left block against the column q of
    the right block (the conversion of the left block to the narrower format is the identity on the extended reals,
    the cast of the right block is to its own shape). -/
theorem pay0_apply (x0 : Vec Ideal S200x10000 .f32) (x1 : Vec Ideal S10000x200 .bf16) (p : Fin 200) (q : Fin 200) :
    Gen.k0_pay1 x0 x1 (ix2 p q) = ∑ k : Fin 10000, x0 (ix2 p k) * x1 (ix2 k q) := by
  unfold Gen.k0_pay1
  rw [shapeCast_self]
  exact Cert.MatmulNN.matmul_nn_apply dot_S200x10000_S10000x200_S200x200_1_0_0_1_n_n none rfl rfl
    (fun _ _ => rfl) (fun j k => DotDims.lhsIdx_val_of_single _ rfl j k)
    (fun j k => DotDims.rhsIdx_val_of_single _ rfl j k) (fun _ _ => rfl) _ _ p q

/-- The payload of two blocks that are rows r.. of the left array and the whole right array. -/
theorem pay0_rows (x : S10000x10000.Idx → EReal) (w : S10000x200.Idx → EReal)
    (x0 : Vec Ideal S200x10000 .f32) (x1 : Vec Ideal S10000x200 .bf16) (r : Fin 10000) (p q : Fin 200)
    (h0 : ∀ k : Fin 10000, x0 (ix2 p k) = x (ix2 r k)) (h1 : ∀ k : Fin 10000, x1 (ix2 k q) = w (ix2 k q)) :
    Gen.k0_pay1 x0 x1 (ix2 p q) = ∑ k : Fin 10000, x (ix2 r k) * w (ix2 k q) := by
  rw [pay0_apply]
  exact Finset.sum_congr rfl fun k _ => by rw [h0 k, h1 k]

/-- The printed index maps over the grid: the left block and the result block sit at the same block row, which is at
    most 49; every other block index is zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every block row of the result is some point's. -/
theorem idx_onto0 : ∀ b : Fin 50, ∃ t : Fin cfg0.N, win0_2.index t = ![b.val, 0] :=
  (by decide +kernel : ∀ b : Fin 50, ∃ t : Fin grid0.N, win0_2.index t = ![b.val, 0])

variable (V : (c : Dev nD) → (b : Ref sig .tc) → Buf (Elt Ideal) ((c : Thread nD τ).loc b))

/-- What point t writes back is block t of the whole product of the two arrays as the region finds them. -/
theorem flushed0_eq (c : Dev nD) (t : Fin cfg0.N) :
    (dat0 (F := Ideal) V c).flushed 2 t
      = ((cfg0.win 2).blk t).view.read (Elt Ideal) (prod0 (V c main_arg0) (V c main_v32)) := by
  show (cfg0.win 2).cut (grid0.coords t) ((dat0 V c).after 2 t) = _
  rw [after0_2]
  unfold out0_2
  rw [View.canon_unit_zero zeros2]
  simp only [View.ld_unit_zero (S := S200x10000) zeros2, View.ld_unit_zero (S := S10000x200) zeros2]
  obtain ⟨e0, e1, e2, e3, e4, e5⟩ := idx_facts0 t
  funext j
  obtain ⟨p, q, rfl⟩ : ∃ (p : Fin 200) (q : Fin 200), j = ix2 p q := ⟨j 0, j 1, eq_ix2 j⟩
  show k0_pay1 (iblk0 V c 0 t) (iblk0 V c 1 t) (ix2 p q)
    = prod0 (V c main_arg0) (V c main_v32) (((cfg0.win 2).blk t).view.emb (ix2 p q))
  refine (pay0_rows (V c main_arg0) (V c main_v32) _ _
    ⟨win0_2.index t (0 : Fin 2) * 200 + p.val, by have := p.isLt; omega⟩ p q (fun k => ?_) (fun k => ?_)).trans
    (prod0_at _ _ _ _ _ ?_ ?_).symm
  · show V c main_arg0 (((cfg0.win 0).blk t).view.emb (ix2 p k)) = _
    refine congrArg (V c main_arg0) (funext fun a => Fin.ext ?_)
    match a with
    | ⟨0, _⟩ => show win0_0.index t (0 : Fin 2) * 200 + 1 * p.val = win0_2.index t (0 : Fin 2) * 200 + p.val; omega
    | ⟨1, _⟩ => show win0_0.index t (1 : Fin 2) * 10000 + 1 * k.val = k.val; omega
  · show V c main_v32 (((cfg0.win 1).blk t).view.emb (ix2 k q)) = _
    refine congrArg (V c main_v32) (funext fun a => Fin.ext ?_)
    match a with
    | ⟨0, _⟩ => show win0_1.index t (0 : Fin 2) * 10000 + 1 * k.val = k.val; omega
    | ⟨1, _⟩ => show win0_1.index t (1 : Fin 2) * 200 + 1 * q.val = q.val; omega
  · show win0_2.index t (0 : Fin 2) * 200 + 1 * p.val = win0_2.index t (0 : Fin 2) * 200 + p.val; omega
  · show win0_2.index t (1 : Fin 2) * 200 + 1 * q.val = q.val; omega

/-- An index of the result array is in point t's block iff each coordinate is in the block's range on its axis. -/
theorem mem_blk0 (t : Fin cfg0.N) (i : S10000x200.Idx) :
    i ∈ ((cfg0.win 2).blk t).view.set ↔ ∀ a : Fin 2, win0_2.index t a * S200x200.size a ≤ (i a).val
      ∧ (i a).val < win0_2.index t a * S200x200.size a + S200x200.size a := by
  show i ∈ ((View.whole main_v33).slice (win0_2.rect t)).set ↔ _
  rw [View.set_slice_whole, Rect.mem_set_unit]
  exact Iff.rfl

/-- The 50 blocks of 200 rows tile the array: row r is in the block of the point at block row r / 200. -/
theorem cover0 (i : S10000x200.Idx) :
    ∃ t : Fin cfg0.N, (cfg0.win 2).flush t = true ∧ i ∈ ((cfg0.win 2).blk t).view.set := by
  have hi0 : (i 0).val < 10000 := (i 0).isLt
  have hi1 : (i 1).val < 200 := (i 1).isLt
  obtain ⟨t, ht⟩ := idx_onto0 ⟨(i 0).val / 200, by omega⟩
  have q0 : win0_2.index t (0 : Fin 2) = (i 0).val / 200 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 200 ≤ (i 1).val ∧ (i 1).val < win0_2.index t (1 : Fin 2) * 200 + 200; omega

/-- The result array after the region is the whole product. -/
theorem arr0_eq (c : Dev nD) :
    (dat0 (F := Ideal) V c).arrAt 2 cfg0.N = prod0 (V c main_arg0) (V c main_v32) :=
  (dat0 V c).arrAt_eq_of_cover 2 _ (fun t _ => flushed0_eq V c t) cover0

theorem arr0_apply (c : Dev nD) (p : Fin 10000) (q : Fin 200) :
    @Eq EReal ((Gen.dat0 (F := Ideal) V c).arrAt 2 cfg0.N (ix2 p q))
      (∑ k : Fin 10000, @HMul.hMul EReal EReal EReal _ (V c main_arg0 (ix2 p k)) (V c main_v32 (ix2 k q))) :=
  (congrFun (arr0_eq V c) (ix2 p q)).trans (prod0_at _ _ _ p q rfl rfl)

/-! ## Region 1: a 10000×200 array times a 200×8 array, 200 rows at a time -/

/-- The whole product, entry by entry: entry (r, s) is the sum over k of left (r, k) · right (k, s). -/
def prod1 (x : S10000x200.Idx → EReal) (w : S200x8.Idx → EReal) : S10000x8.Idx → EReal :=
  fun i => ∑ k : Fin 200, x (ix2 (n0 := 10000) (i 0) k) * w (ix2 (n1 := 8) k (i 1))

/-- The product at an index whose two coordinates are known. -/
theorem prod1_at (x : S10000x200.Idx → EReal) (w : S200x8.Idx → EReal) (i : S10000x8.Idx)
    (r : Fin 10000) (s : Fin 8) (hr : (i 0).val = r.val) (hs : (i 1).val = s.val) :
    prod1 x w i = ∑ k : Fin 200, x (ix2 r k) * w (ix2 k s) := by
  have e : i = ix2 r s := funext fun a => Fin.ext (by
    match a with
    | ⟨0, _⟩ => exact hr
    | ⟨1, _⟩ => exact hs)
  subst e; rfl

/-- The body's payload at entry (p, q) of its 200×8 result: the row p of the left block against the column q of
    the right block (both casts are to the operand's own shape, and the conversion of the left block to the narrower
    format is the identity on the extended reals). -/
theorem pay1_apply (x0 : Vec Ideal S200x200 .f32) (x1 : Vec Ideal S200x8 .bf16) (p : Fin 200) (q : Fin 8) :
    Gen.k1_pay1 x0 x1 (ix2 p q) = ∑ k : Fin 200, x0 (ix2 p k) * x1 (ix2 k q) := by
  unfold Gen.k1_pay1
  rw [shapeCast_self, shapeCast_self]
  exact Cert.MatmulNN.matmul_nn_apply dot_S200x200_S200x8_S200x8_1_0_0_1_n_n none rfl rfl
    (fun _ _ => rfl) (fun j k => DotDims.lhsIdx_val_of_single _ rfl j k)
    (fun j k => DotDims.rhsIdx_val_of_single _ rfl j k) (fun _ _ => rfl) _ _ p q

/-- The payload of two blocks that are rows r.. of the left array and the whole right array. -/
theorem pay1_rows (x : S10000x200.Idx → EReal) (w : S200x8.Idx → EReal)
    (x0 : Vec Ideal S200x200 .f32) (x1 : Vec Ideal S200x8 .bf16) (r : Fin 10000) (p : Fin 200) (q : Fin 8)
    (h0 : ∀ k : Fin 200, x0 (ix2 p k) = x (ix2 r k)) (h1 : ∀ k : Fin 200, x1 (ix2 k q) = w (ix2 k q)) :
    Gen.k1_pay1 x0 x1 (ix2 p q) = ∑ k : Fin 200, x (ix2 r k) * w (ix2 k q) := by
  rw [pay1_apply]
  exact Finset.sum_congr rfl fun k _ => by rw [h0 k, h1 k]

/-- The printed index maps over the grid: the left block and the result block sit at the same block row, which is at
    most 49; every other block index is zero. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 49 :=
  (by decide +kernel : ∀ t : Fin grid1.N, _)

/-- Every block row of the result is some point's. -/
theorem idx_onto1 : ∀ b : Fin 50, ∃ t : Fin cfg1.N, win1_2.index t = ![b.val, 0] :=
  (by decide +kernel : ∀ b : Fin 50, ∃ t : Fin grid1.N, win1_2.index t = ![b.val, 0])

/-- What point t writes back is block t of the whole product of the two arrays as the region finds them. -/
theorem flushed1_eq (c : Dev nD) (t : Fin cfg1.N) :
    (dat1 (F := Ideal) V c).flushed 2 t
      = ((cfg1.win 2).blk t).view.read (Elt Ideal) (prod1 (V c main_v50) (V c main_v51)) := by
  show (cfg1.win 2).cut (grid1.coords t) ((dat1 V c).after 2 t) = _
  rw [after1_2]
  unfold out1_2
  rw [View.canon_unit_zero zeros2]
  simp only [View.ld_unit_zero (S := S200x200) zeros2, View.ld_unit_zero (S := S200x8) zeros2]
  obtain ⟨e0, e1, e2, e3, e4, e5⟩ := idx_facts1 t
  funext j
  obtain ⟨p, q, rfl⟩ : ∃ (p : Fin 200) (q : Fin 8), j = ix2 p q := ⟨j 0, j 1, eq_ix2 j⟩
  show k1_pay1 (iblk1 V c 0 t) (iblk1 V c 1 t) (ix2 p q)
    = prod1 (V c main_v50) (V c main_v51) (((cfg1.win 2).blk t).view.emb (ix2 p q))
  refine (pay1_rows (V c main_v50) (V c main_v51) _ _
    ⟨win1_2.index t (0 : Fin 2) * 200 + p.val, by have := p.isLt; omega⟩ p q (fun k => ?_) (fun k => ?_)).trans
    (prod1_at _ _ _ _ _ ?_ ?_).symm
  · show V c main_v50 (((cfg1.win 0).blk t).view.emb (ix2 p k)) = _
    refine congrArg (V c main_v50) (funext fun a => Fin.ext ?_)
    match a with
    | ⟨0, _⟩ => show win1_0.index t (0 : Fin 2) * 200 + 1 * p.val = win1_2.index t (0 : Fin 2) * 200 + p.val; omega
    | ⟨1, _⟩ => show win1_0.index t (1 : Fin 2) * 200 + 1 * k.val = k.val; omega
  · show V c main_v51 (((cfg1.win 1).blk t).view.emb (ix2 k q)) = _
    refine congrArg (V c main_v51) (funext fun a => Fin.ext ?_)
    match a with
    | ⟨0, _⟩ => show win1_1.index t (0 : Fin 2) * 200 + 1 * k.val = k.val; omega
    | ⟨1, _⟩ => show win1_1.index t (1 : Fin 2) * 8 + 1 * q.val = q.val; omega
  · show win1_2.index t (0 : Fin 2) * 200 + 1 * p.val = win1_2.index t (0 : Fin 2) * 200 + p.val; omega
  · show win1_2.index t (1 : Fin 2) * 8 + 1 * q.val = q.val; omega

/-- An index of the result array is in point t's block iff each coordinate is in the block's range on its axis. -/
theorem mem_blk1 (t : Fin cfg1.N) (i : S10000x8.Idx) :
    i ∈ ((cfg1.win 2).blk t).view.set ↔ ∀ a : Fin 2, win1_2.index t a * S200x8.size a ≤ (i a).val
      ∧ (i a).val < win1_2.index t a * S200x8.size a + S200x8.size a := by
  show i ∈ ((View.whole main_v52).slice (win1_2.rect t)).set ↔ _
  rw [View.set_slice_whole, Rect.mem_set_unit]
  exact Iff.rfl

/-- The 50 blocks of 200 rows tile the array: row r is in the block of the point at block row r / 200. -/
theorem cover1 (i : S10000x8.Idx) :
    ∃ t : Fin cfg1.N, (cfg1.win 2).flush t = true ∧ i ∈ ((cfg1.win 2).blk t).view.set := by
  have hi0 : (i 0).val < 10000 := (i 0).isLt
  have hi1 : (i 1).val < 8 := (i 1).isLt
  obtain ⟨t, ht⟩ := idx_onto1 ⟨(i 0).val / 200, by omega⟩
  have q0 : win1_2.index t (0 : Fin 2) = (i 0).val / 200 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 200 ≤ (i 0).val ∧ (i 0).val < win1_2.index t (0 : Fin 2) * 200 + 200; omega
  | ⟨1, _⟩ => show win1_2.index t (1 : Fin 2) * 8 ≤ (i 1).val ∧ (i 1).val < win1_2.index t (1 : Fin 2) * 8 + 8; omega

/-- The result array after the region is the whole product. -/
theorem arr1_eq (c : Dev nD) :
    (dat1 (F := Ideal) V c).arrAt 2 cfg1.N = prod1 (V c main_v50) (V c main_v51) :=
  (dat1 V c).arrAt_eq_of_cover 2 _ (fun t _ => flushed1_eq V c t) cover1

theorem arr1_apply (c : Dev nD) (p : Fin 10000) (q : Fin 8) :
    @Eq EReal ((Gen.dat1 (F := Ideal) V c).arrAt 2 cfg1.N (ix2 p q))
      (∑ k : Fin 200, @HMul.hMul EReal EReal EReal _ (V c main_v50 (ix2 p k)) (V c main_v51 (ix2 k q))) :=
  (congrFun (arr1_eq V c) (ix2 p q)).trans (prod1_at _ _ _ p q rfl rfl)

end Cert.KernelIdeal.RegionArr

end
-- ==== Proof.StagesR.lean ====
/-
  The host-side stages of the idealized reference as pure functions, stretch by stretch around its two dense products (the same operations as the kernel program's, over the reference's own dimension records).
-/
import proofs.«105357_j74088185856644_1_alg».proof.Proof.Gen.ReferenceIdeal

noncomputable section

namespace Cert.ReferenceIdeal.Stages

open Cert.ReferenceIdeal Cert.ReferenceIdeal.Gen Idealize.ShloMosaic Idealize.ShloMosaic.TcCoe Idealize.SL.Sem

variable {F : FTy → Type} [FloatOps F]

/-- The source node of each of the 330000 edges: the first row of the edge list followed by the 10000 self loops. -/
def rowOf (x1 : (⟨S2x320000, .i32⟩ : BufTy).Contents (Elt F)) : (⟨S330000, .i32⟩ : BufTy).Contents (Elt F) :=
  concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0

/-- The target node of each edge: the second row of the edge list followed by the self loops. -/
def colOf (x1 : (⟨S2x320000, .i32⟩ : BufTy).Contents (Elt F)) : (⟨S330000, .i32⟩ : BufTy).Contents (Elt F) :=
  concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0

/-- The symmetric normalisation of the edge weights: with w the weights followed by ones and deg the weights summed
    into their target nodes, dis = deg^(-1/2) where deg > 0 and 0 elsewhere, and the coefficient of an edge is
    dis[source] · w · dis[target]. -/
def normOf (x1 : (⟨S2x320000, .i32⟩ : BufTy).Contents (Elt F)) (x2 : (⟨S320000, .f32⟩ : BufTy).Contents (Elt F)) : (⟨S330000, .f32⟩ : BufTy).Contents (Elt F) :=
  mulf (mulf (Host.gather gather_S10000_S330000x1_S330000_n_0_n_n_0_1_1 (select (cmpf .ogt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (concatenate S330000 0 [⟨S320000, x2⟩, ⟨S10000, (broadcastInDim S10000 ![] bcast_S_S10000 (constant S_ .f32 0x3F800000#32))⟩] concatenates_S320000_S10000_S330000_d0)) (broadcastInDim S10000 ![] bcast_S_S10000 (constant S_ .f32 0x00000000#32))) (Host.rsqrt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (concatenate S330000 0 [⟨S320000, x2⟩, ⟨S10000, (broadcastInDim S10000 ![] bcast_S_S10000 (constant S_ .f32 0x3F800000#32))⟩] concatenates_S320000_S10000_S330000_d0))) (broadcastInDim S10000 ![] bcast_S_S10000 (id (constant S_ .f32 0x00000000#32)))) (broadcastInDim S330000x1 ![0] bcast_S330000_S330000x1_0 (select (cmpi .slt (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0)))) (concatenate S330000 0 [⟨S320000, x2⟩, ⟨S10000, (broadcastInDim S10000 ![] bcast_S_S10000 (constant S_ .f32 0x3F800000#32))⟩] concatenates_S320000_S10000_S330000_d0)) (Host.gather gather_S10000_S330000x1_S330000_n_0_n_n_0_1_1 (select (cmpf .ogt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (concatenate S330000 0 [⟨S320000, x2⟩, ⟨S10000, (broadcastInDim S10000 ![] bcast_S_S10000 (constant S_ .f32 0x3F800000#32))⟩] concatenates_S320000_S10000_S330000_d0)) (broadcastInDim S10000 ![] bcast_S_S10000 (constant S_ .f32 0x00000000#32))) (Host.rsqrt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (concatenate S330000 0 [⟨S320000, x2⟩, ⟨S10000, (broadcastInDim S10000 ![] bcast_S_S10000 (constant S_ .f32 0x3F800000#32))⟩] concatenates_S320000_S10000_S330000_d0))) (broadcastInDim S10000 ![] bcast_S_S10000 (id (constant S_ .f32 0x00000000#32)))) (broadcastInDim S330000x1 ![0] bcast_S330000_S330000x1_0 (select (cmpi .slt (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0))))

/-- The first graph layer after its dense product `h1`: gather the source rows of `h1`, scale each by its edge's
    coefficient, sum into the target rows, add the bias and take the maximum with zero. -/
def layer1 (row col : (⟨S330000, .i32⟩ : BufTy).Contents (Elt F)) (nrm : (⟨S330000, .f32⟩ : BufTy).Contents (Elt F)) (h1 : (⟨S10000x200, .f32⟩ : BufTy).Contents (Elt F)) (x6 : (⟨S200, .f32⟩ : BufTy).Contents (Elt F)) : (⟨S10000x200, .f32⟩ : BufTy).Contents (Elt F) :=
  maximumf (addf (Host.scatterAdd scatter_S10000x200_S330000x1_S330000x200_1_0_0_1 (broadcastInDim S10000x200 ![] bcast_S_S10000x200 (constant S_ .f32 0x00000000#32)) (broadcastInDim S330000x1 ![0] bcast_S330000_S330000x1_0 (col)) (mulf (Host.gather gather_S10000x200_S330000x1_S330000x200_1_0_n_n_0_1_1200 (h1) (broadcastInDim S330000x1 ![0] bcast_S330000_S330000x1_0 (select (cmpi .slt (row) (broadcastInDim S330000 ![] bcast_S_S330000 (constantI S_ 32 0#32))) (addi (row) (broadcastInDim S330000 ![] bcast_S_S330000 (constantI S_ 32 10000#32))) (row)))) (broadcastInDim S330000x200 ![0, 1] bcast_S330000x1_S330000x200_0_1 (broadcastInDim S330000x1 ![0] bcast_S330000_S330000x1_0 (nrm))))) (broadcastInDim S10000x200 ![0, 1] bcast_S1x200_S10000x200_0_1 (broadcastInDim S1x200 ![1] bcast_S200_S1x200_1 x6))) (broadcastInDim S10000x200 ![] bcast_S_S10000x200 (constant S_ .f32 0x00000000#32))

/-- The second graph layer after its dense product `h2` (gather, scale, sum into targets, add the bias), read at the
    2000 selected rows. -/
def layer2 (row col : (⟨S330000, .i32⟩ : BufTy).Contents (Elt F)) (nrm : (⟨S330000, .f32⟩ : BufTy).Contents (Elt F)) (h2 : (⟨S10000x8, .f32⟩ : BufTy).Contents (Elt F)) (x8 : (⟨S8, .f32⟩ : BufTy).Contents (Elt F)) (x3 : (⟨S2000, .i32⟩ : BufTy).Contents (Elt F)) : (⟨S2000x8, .f32⟩ : BufTy).Contents (Elt F) :=
  Host.gather gather_S10000x8_S2000x1_S2000x8_1_0_n_n_0_1_18 (addf (Host.scatterAdd scatter_S10000x8_S330000x1_S330000x8_1_0_0_1 (broadcastInDim S10000x8 ![] bcast_S_S10000x8 (constant S_ .f32 0x00000000#32)) (broadcastInDim S330000x1 ![0] bcast_S330000_S330000x1_0 (col)) (mulf (Host.gather gather_S10000x8_S330000x1_S330000x8_1_0_n_n_0_1_18 (h2) (broadcastInDim S330000x1 ![0] bcast_S330000_S330000x1_0 (select (cmpi .slt (row) (broadcastInDim S330000 ![] bcast_S_S330000 (constantI S_ 32 0#32))) (addi (row) (broadcastInDim S330000 ![] bcast_S_S330000 (constantI S_ 32 10000#32))) (row)))) (broadcastInDim S330000x8 ![0, 1] bcast_S330000x1_S330000x8_0_1 (broadcastInDim S330000x1 ![0] bcast_S330000_S330000x1_0 (nrm))))) (broadcastInDim S10000x8 ![0, 1] bcast_S1x8_S10000x8_0_1 (broadcastInDim S1x8 ![1] bcast_S8_S1x8_1 x8))) (broadcastInDim S2000x1 ![0] bcast_S2000_S2000x1_0 (select (cmpi .slt x3 (broadcastInDim S2000 ![] bcast_S_S2000 (constantI S_ 32 0#32))) (addi x3 (broadcastInDim S2000 ![] bcast_S_S2000 (constantI S_ 32 10000#32))) x3))

/-- The labels at the 2000 selected rows. -/
def labelsOf (x4 : (⟨S10000, .i32⟩ : BufTy).Contents (Elt F)) (x3 : (⟨S2000, .i32⟩ : BufTy).Contents (Elt F)) : (⟨S2000, .i32⟩ : BufTy).Contents (Elt F) :=
  Host.gather gather_S10000_S2000x1_S2000_n_0_n_n_0_1_1 x4 (broadcastInDim S2000x1 ![0] bcast_S2000_S2000x1_0 (select (cmpi .slt x3 (broadcastInDim S2000 ![] bcast_S_S2000 (constantI S_ 32 0#32))) (addi x3 (broadcastInDim S2000 ![] bcast_S_S2000 (constantI S_ 32 10000#32))) x3))

end Cert.ReferenceIdeal.Stages

end
-- ==== Proof.RefValue.lean ====
/-
  The idealized reference's result as the composition of the stage functions around its two dense products, and each
  dense product read at an entry: entry (p, q) of X · W is the sum over k of X (p, k) · W (k, q) on the extended reals.
-/
import proofs.«105357_j74088185856644_1_alg».proof.Proof.Gen.ReferenceIdeal.Read
import proofs.«105357_j74088185856644_1_alg».proof.Proof.StagesR
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Stages Cert.ReferenceIdeal.Value Cert.ReferenceIdeal.Read
open Idealize.ShloMosaic Idealize.ShloMosaic.TcCoe Idealize.SL.Sem Idealize.ShloMosaic.ValueIdx

variable {F : FTy → Type} [FloatOps F]

/-- The first result is the second graph layer of the second dense product of the first graph layer of the first
    dense product, every stage over the same edge sources, targets and coefficients. -/
theorem res_pred (m : (ℓ : Loc nD τ sig) → Buf (Elt F) ℓ) (c : Dev nD) :
    res_main_v73 (F := F) m c
      = layer2 (rowOf (m ((c.tc : Thread nD τ).loc main_arg1))) (colOf (m ((c.tc : Thread nD τ).loc main_arg1))) (normOf (m ((c.tc : Thread nD τ).loc main_arg1)) (m ((c.tc : Thread nD τ).loc main_arg2)))
          (Host.dotGeneral dot_S10000x200_S200x8_S10000x8_1_0_0_1_n_n none
            (layer1 (rowOf (m ((c.tc : Thread nD τ).loc main_arg1))) (colOf (m ((c.tc : Thread nD τ).loc main_arg1))) (normOf (m ((c.tc : Thread nD τ).loc main_arg1)) (m ((c.tc : Thread nD τ).loc main_arg2)))
              (Host.dotGeneral dot_S10000x10000_S10000x200_S10000x200_1_0_0_1_n_n none (m ((c.tc : Thread nD τ).loc main_arg0)) (m ((c.tc : Thread nD τ).loc main_arg5))) (m ((c.tc : Thread nD τ).loc main_arg6)))
            (m ((c.tc : Thread nD τ).loc main_arg7)))
          (m ((c.tc : Thread nD τ).loc main_arg8)) (m ((c.tc : Thread nD τ).loc main_arg3)) := by
  unfold res_main_v73
  rfl

/-- Entry (p, q) of the first dense product. -/
theorem dot1_apply (x0 : FVec Ideal S10000x10000 .f32) (x5 : FVec Ideal S10000x200 .f32)
    (p : Fin 10000) (q : Fin 200) :
    Host.dotGeneral (F := Ideal) dot_S10000x10000_S10000x200_S10000x200_1_0_0_1_n_n none x0 x5 (ix2 p q) = ∑ k : Fin 10000, x0 (ix2 p k) * x5 (ix2 k q) := by
  refine (val_main_v32_apply x0 x5 (ix2 p q)).trans ?_
  refine Finset.sum_congr rfl fun k _ => ?_
  have el : lidx_main_v32 (ix2 p q) k = ix2 p k := funext fun a => Fin.ext (by match a with | ⟨0, _⟩ => rfl | ⟨1, _⟩ => rfl)
  have er : ridx_main_v32 (ix2 p q) k = ix2 k q := funext fun a => Fin.ext (by match a with | ⟨0, _⟩ => rfl | ⟨1, _⟩ => rfl)
  rw [el, er]

/-- Entry (p, q) of the second dense product. -/
theorem dot2_apply (y0 : FVec Ideal S10000x200 .f32) (x7 : FVec Ideal S200x8 .f32)
    (p : Fin 10000) (q : Fin 8) :
    Host.dotGeneral (F := Ideal) dot_S10000x200_S200x8_S10000x8_1_0_0_1_n_n none y0 x7 (ix2 p q) = ∑ k : Fin 200, y0 (ix2 p k) * x7 (ix2 k q) := by
  simp only [Host.dotGeneral]
  rw [Ideal.dotGeneral_apply, ← Equiv.sum_comp (ValueIdx.contrEquiv1 dot_S10000x200_S200x8_S10000x8_1_0_0_1_n_n 200 rfl rfl).symm]
  refine Finset.sum_congr rfl fun k _ => ?_
  have hk := ValueIdx.contrEquiv1_symm_val dot_S10000x200_S200x8_S10000x8_1_0_0_1_n_n 200 rfl rfl k
  have el : dot_S10000x200_S200x8_S10000x8_1_0_0_1_n_n.lhsIdx (ix2 p q) ((ValueIdx.contrEquiv1 dot_S10000x200_S200x8_S10000x8_1_0_0_1_n_n 200 rfl rfl).symm k) = ix2 p k := funext fun a => Fin.ext (by
    match a with
    | ⟨0, _⟩ => exact lhs_main_v50_0 _ _
    | ⟨1, _⟩ => exact (lhs_main_v50_1 _ _).trans hk)
  have er : dot_S10000x200_S200x8_S10000x8_1_0_0_1_n_n.rhsIdx (ix2 p q) ((ValueIdx.contrEquiv1 dot_S10000x200_S200x8_S10000x8_1_0_0_1_n_n 200 rfl rfl).symm k) = ix2 k q := funext fun a => Fin.ext (by
    match a with
    | ⟨0, _⟩ => exact (rhs_main_v50_0 _ _).trans hk
    | ⟨1, _⟩ => exact rhs_main_v50_1 _ _)
  rw [el, er]

end Cert.ReferenceIdeal.RefValue

end
-- ==== Proof.StagesEq.lean ====
/-
  The two programs' stage functions are the same functions: their dimension records are spelt in each program's own
  namespace over equal literals, so each equation holds by unfolding the records.
-/
import proofs.«105357_j74088185856644_1_alg».proof.Proof.StagesK
import proofs.«105357_j74088185856644_1_alg».proof.Proof.StagesR

set_option maxRecDepth 16384

noncomputable section

namespace Cert.Proof.StagesEq

open Idealize.ShloMosaic

variable {F : FTy → Type} [FloatOps F]

theorem rowOf_eq : Cert.KernelIdeal.Stages.rowOf (F := F) = Cert.ReferenceIdeal.Stages.rowOf (F := F) := rfl
theorem colOf_eq : Cert.KernelIdeal.Stages.colOf (F := F) = Cert.ReferenceIdeal.Stages.colOf (F := F) := rfl
theorem normOf_eq : Cert.KernelIdeal.Stages.normOf (F := F) = Cert.ReferenceIdeal.Stages.normOf (F := F) := rfl
theorem layer1_eq : Cert.KernelIdeal.Stages.layer1 (F := F) = Cert.ReferenceIdeal.Stages.layer1 (F := F) := rfl
theorem layer2_eq : Cert.KernelIdeal.Stages.layer2 (F := F) = Cert.ReferenceIdeal.Stages.layer2 (F := F) := rfl
theorem labelsOf_eq : Cert.KernelIdeal.Stages.labelsOf (F := F) = Cert.ReferenceIdeal.Stages.labelsOf (F := F) := rfl

end Cert.Proof.StagesEq

end
-- ==== Proof.KernelValue.lean ====
/-
  The idealized kernel program's two results as functions of its arguments.  Each row-tiled dense product leaves in its
  output array the whole matrix product: entry (p, q) is the sum over k of left (p, k) · right (k, q), the rounding of
  the operands to bf16 being the identity on the extended reals; that is the reference's dense product entry by entry.
  Around the two products both programs apply the same stage functions, so the kernel program's first result is the
  second graph layer of the second product of the first graph layer of the first product, as the reference's is.
-/
import proofs.«105357_j74088185856644_1_alg».proof.Proof.KernelWalk
import proofs.«105357_j74088185856644_1_alg».proof.Proof.RegionArr
import proofs.«105357_j74088185856644_1_alg».proof.Proof.RefValue
import proofs.«105357_j74088185856644_1_alg».proof.Proof.StagesEq

set_option maxRecDepth 16384

noncomputable section

namespace Cert.Proof.KernelValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first product's output array is the reference's dense product of the input matrix and the first weight matrix. -/
theorem h1_eq (c : Dev nD) :
    (dat0 (F := Ideal) (V3 m ρ) c).arrAt 2 cfg0.N
      = Host.dotGeneral (F := Ideal) (φ₁ := .f32) (φ₂ := .f32) Cert.ReferenceIdeal.dot_S10000x10000_S10000x200_S10000x200_1_0_0_1_n_n none (m ((c : Thread nD τ).loc main_arg0)) (m ((c : Thread nD τ).loc main_arg5)) := by
  refine funext fun (i : S10000x200.Idx) => ?_
  obtain ⟨p, q, rfl⟩ : ∃ (p : Fin 10000) (q : Fin 200), i = ix2 p q := ⟨i 0, i 1, eq_ix2 i⟩
  refine (Cert.KernelIdeal.RegionArr.arr0_apply (V3 m ρ) c p q).trans ?_
  refine Eq.trans ?_ (Cert.ReferenceIdeal.RefValue.dot1_apply _ _ p q).symm
  dsimp only [V3]
  rw [Cert.KernelIdeal.Walk.A_arg0 m ρ c, Cert.KernelIdeal.Walk.A_w1 m ρ c]
  exact Finset.sum_congr rfl fun k _ => rfl

/-- The second product's output array is the reference's dense product of the first layer's output (as the kernel
    program holds it) and the second weight matrix. -/
theorem h2_eq (c : Dev nD) :
    (dat1 (F := Ideal) (V7 m ρ) c).arrAt 2 cfg1.N
      = Host.dotGeneral (F := Ideal) (φ₁ := .f32) (φ₂ := .f32) Cert.ReferenceIdeal.dot_S10000x200_S200x8_S10000x8_1_0_0_1_n_n none (W7 m ρ c (Proc.devRef .tc main_v50)) (m ((c : Thread nD τ).loc main_arg7)) := by
  refine funext fun (i : S10000x8.Idx) => ?_
  obtain ⟨p, q, rfl⟩ : ∃ (p : Fin 10000) (q : Fin 8), i = ix2 p q := ⟨i 0, i 1, eq_ix2 i⟩
  refine (Cert.KernelIdeal.RegionArr.arr1_apply (V7 m ρ) c p q).trans ?_
  refine Eq.trans ?_ (Cert.ReferenceIdeal.RefValue.dot2_apply _ _ p q).symm
  dsimp only [V7]
  rw [Cert.KernelIdeal.Walk.C_w2 m ρ c, Cert.KernelIdeal.Walk.B_main_arg7 m ρ c, Cert.KernelIdeal.Walk.A_arg7 m ρ c]
  exact Finset.sum_congr rfl fun k _ => rfl

/-- The first layer's output as the kernel program holds it. -/
theorem h_eq (c : Dev nD) :
    W7 m ρ c (Proc.devRef .tc main_v50)
      = Cert.KernelIdeal.Stages.layer1 (Cert.KernelIdeal.Stages.rowOf (m ((c : Thread nD τ).loc main_arg1))) (Cert.KernelIdeal.Stages.colOf (m ((c : Thread nD τ).loc main_arg1))) (Cert.KernelIdeal.Stages.normOf (m ((c : Thread nD τ).loc main_arg1)) (m ((c : Thread nD τ).loc main_arg2)))
          (Host.dotGeneral (F := Ideal) (φ₁ := .f32) (φ₂ := .f32) Cert.ReferenceIdeal.dot_S10000x10000_S10000x200_S10000x200_1_0_0_1_n_n none (m ((c : Thread nD τ).loc main_arg0)) (m ((c : Thread nD τ).loc main_arg5))) (m ((c : Thread nD τ).loc main_arg6)) := by
  rw [Cert.KernelIdeal.Walk.C_h, Cert.KernelIdeal.Walk.B_main_v3, Cert.KernelIdeal.Walk.B_main_v6, Cert.KernelIdeal.Walk.B_main_v31, Cert.KernelIdeal.Walk.B_out, Cert.KernelIdeal.Walk.B_main_arg6,
    Cert.KernelIdeal.Walk.A_row, Cert.KernelIdeal.Walk.A_col, Cert.KernelIdeal.Walk.A_nrm, Cert.KernelIdeal.Walk.A_arg6, h1_eq]

/-- The kernel program's first result. -/
theorem pred_eq (c : Dev nD) :
    W9 m ρ c (Proc.devRef .tc main_v75)
      = Cert.ReferenceIdeal.Stages.layer2 (Cert.ReferenceIdeal.Stages.rowOf (m ((c : Thread nD τ).loc main_arg1))) (Cert.ReferenceIdeal.Stages.colOf (m ((c : Thread nD τ).loc main_arg1))) (Cert.ReferenceIdeal.Stages.normOf (m ((c : Thread nD τ).loc main_arg1)) (m ((c : Thread nD τ).loc main_arg2)))
          (Host.dotGeneral (F := Ideal) (φ₁ := .f32) (φ₂ := .f32) Cert.ReferenceIdeal.dot_S10000x200_S200x8_S10000x8_1_0_0_1_n_n none
            (Cert.ReferenceIdeal.Stages.layer1 (Cert.ReferenceIdeal.Stages.rowOf (m ((c : Thread nD τ).loc main_arg1))) (Cert.ReferenceIdeal.Stages.colOf (m ((c : Thread nD τ).loc main_arg1))) (Cert.ReferenceIdeal.Stages.normOf (m ((c : Thread nD τ).loc main_arg1)) (m ((c : Thread nD τ).loc main_arg2)))
              (Host.dotGeneral (F := Ideal) (φ₁ := .f32) (φ₂ := .f32) Cert.ReferenceIdeal.dot_S10000x10000_S10000x200_S10000x200_1_0_0_1_n_n none (m ((c : Thread nD τ).loc main_arg0)) (m ((c : Thread nD τ).loc main_arg5))) (m ((c : Thread nD τ).loc main_arg6)))
            (m ((c : Thread nD τ).loc main_arg7)))
          (m ((c : Thread nD τ).loc main_arg8)) (m ((c : Thread nD τ).loc main_arg3)) := by
  have hK : W9 m ρ c (Proc.devRef .tc main_v75)
      = Cert.KernelIdeal.Stages.layer2 (Cert.KernelIdeal.Stages.rowOf (m ((c : Thread nD τ).loc main_arg1))) (Cert.KernelIdeal.Stages.colOf (m ((c : Thread nD τ).loc main_arg1))) (Cert.KernelIdeal.Stages.normOf (m ((c : Thread nD τ).loc main_arg1)) (m ((c : Thread nD τ).loc main_arg2)))
          (Host.dotGeneral (F := Ideal) (φ₁ := .f32) (φ₂ := .f32) Cert.ReferenceIdeal.dot_S10000x200_S200x8_S10000x8_1_0_0_1_n_n none
            (Cert.KernelIdeal.Stages.layer1 (Cert.KernelIdeal.Stages.rowOf (m ((c : Thread nD τ).loc main_arg1))) (Cert.KernelIdeal.Stages.colOf (m ((c : Thread nD τ).loc main_arg1))) (Cert.KernelIdeal.Stages.normOf (m ((c : Thread nD τ).loc main_arg1)) (m ((c : Thread nD τ).loc main_arg2)))
              (Host.dotGeneral (F := Ideal) (φ₁ := .f32) (φ₂ := .f32) Cert.ReferenceIdeal.dot_S10000x10000_S10000x200_S10000x200_1_0_0_1_n_n none (m ((c : Thread nD τ).loc main_arg0)) (m ((c : Thread nD τ).loc main_arg5))) (m ((c : Thread nD τ).loc main_arg6)))
            (m ((c : Thread nD τ).loc main_arg7)))
          (m ((c : Thread nD τ).loc main_arg8)) (m ((c : Thread nD τ).loc main_arg3)) := by
    rw [Cert.KernelIdeal.Walk.E_pred, Cert.KernelIdeal.Walk.D_main_v3, Cert.KernelIdeal.Walk.D_main_v6, Cert.KernelIdeal.Walk.D_main_v31, Cert.KernelIdeal.Walk.D_out, Cert.KernelIdeal.Walk.D_main_arg8, Cert.KernelIdeal.Walk.D_main_arg3,
      Cert.KernelIdeal.Walk.C_main_v3, Cert.KernelIdeal.Walk.C_main_v6, Cert.KernelIdeal.Walk.C_main_v31, Cert.KernelIdeal.Walk.C_main_arg8, Cert.KernelIdeal.Walk.C_main_arg3,
      Cert.KernelIdeal.Walk.B_main_v3, Cert.KernelIdeal.Walk.B_main_v6, Cert.KernelIdeal.Walk.B_main_v31, Cert.KernelIdeal.Walk.B_main_arg8, Cert.KernelIdeal.Walk.B_main_arg3,
      Cert.KernelIdeal.Walk.A_row, Cert.KernelIdeal.Walk.A_col, Cert.KernelIdeal.Walk.A_nrm, Cert.KernelIdeal.Walk.A_arg8, Cert.KernelIdeal.Walk.A_arg3, h2_eq, h_eq]
  rw [hK, Cert.Proof.StagesEq.layer2_eq, Cert.Proof.StagesEq.layer1_eq, Cert.Proof.StagesEq.rowOf_eq,
    Cert.Proof.StagesEq.colOf_eq, Cert.Proof.StagesEq.normOf_eq]

/-- The kernel program's second result: the labels at the selected rows. -/
theorem lab_eq (c : Dev nD) :
    W9 m ρ c (Proc.devRef .tc main_v82) = Cert.ReferenceIdeal.Stages.labelsOf (m ((c : Thread nD τ).loc main_arg4)) (m ((c : Thread nD τ).loc main_arg3)) := by
  rw [Cert.KernelIdeal.Walk.E_lab, Cert.KernelIdeal.Walk.D_main_arg4, Cert.KernelIdeal.Walk.D_main_arg3, Cert.KernelIdeal.Walk.C_main_arg4, Cert.KernelIdeal.Walk.C_main_arg3,
    Cert.KernelIdeal.Walk.B_main_arg4, Cert.KernelIdeal.Walk.B_main_arg3, Cert.KernelIdeal.Walk.A_arg4, Cert.KernelIdeal.Walk.A_arg3, Cert.Proof.StagesEq.labelsOf_eq]

end Cert.Proof.KernelValue

end
-- ==== Proof.lean ====
/-
  A two-layer graph convolution network on 10000 nodes: the kernel program computes each layer's dense product
  X · W with a row-tiled matrix-product kernel (fifty tiles of 200 rows, the operands rounded to bf16 on the way in),
  the reference with one whole matrix product; everything around the two products — the edge normalisation, the
  gather of source rows, the scaling, the sum into target rows, the bias, the maximum with zero, the final row
  selection — is the same host computation in both.  On the extended reals a rounding is the identity and a tile's
  product is the corresponding rows of the whole product, so the two programs compute one function of the arguments;
  no law beyond the equality of the two products entry by entry is needed, and finiteness of the inputs is not used.
  The idealization rewrote nothing, so the kernel program is its own idealization.
-/
import proofs.«105357_j74088185856644_1_alg».proof.Defs
import proofs.«105357_j74088185856644_1_alg».proof.Proof.Gen.Kernel
import proofs.«105357_j74088185856644_1_alg».proof.Proof.Gen.Kernel.Skeleton
import proofs.«105357_j74088185856644_1_alg».proof.Proof.Gen.Kernel.Launch
import proofs.«105357_j74088185856644_1_alg».proof.Proof.Gen.Kernel.Points
import proofs.«105357_j74088185856644_1_alg».proof.Proof.Gen.Kernel.Frame
import proofs.«105357_j74088185856644_1_alg».proof.Proof.Gen.KernelIdeal
import proofs.«105357_j74088185856644_1_alg».proof.Proof.Gen.KernelIdeal.Skeleton
import proofs.«105357_j74088185856644_1_alg».proof.Proof.Gen.KernelIdeal.Launch
import proofs.«105357_j74088185856644_1_alg».proof.Proof.Gen.KernelIdeal.Points
import proofs.«105357_j74088185856644_1_alg».proof.Proof.Gen.KernelIdeal.Frame
import proofs.«105357_j74088185856644_1_alg».proof.Proof.Gen.ReferenceIdeal
import proofs.«105357_j74088185856644_1_alg».proof.Proof.Gen.ReferenceIdeal.Run
import proofs.«105357_j74088185856644_1_alg».proof.Proof.Gen.ReferenceIdeal.Read
import proofs.«105357_j74088185856644_1_alg».proof.Proof.Gen.Pre_finite_inputs
import proofs.«105357_j74088185856644_1_alg».proof.Proof.KernelRun
import proofs.«105357_j74088185856644_1_alg».proof.Proof.KernelValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The two idealized programs, from memories agreeing on the arguments, end with equal results: the kernel program's
    results are the last boundary's contents, which are the reference's composed terms of the same arguments. -/
theorem algebraic : Cert.algebraic_KernelIdeal_ReferenceIdeal := by
  intro m ρ m' ρ' _ hagree
  refine ⟨fun c => Cert.KernelIdeal.Gen.W9 m ρ c (Proc.devRef .tc Cert.KernelIdeal.main_v75),
    fun c => Cert.KernelIdeal.Gen.W9 m ρ c (Proc.devRef .tc Cert.KernelIdeal.main_v82),
    Cert.KernelIdeal.RunVal.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8⟩ := hagree c
    rw [Cert.ReferenceIdeal.RefValue.res_pred, e0, e1, e2, e3, e5, e6, e7, e8]
    exact (Cert.Proof.KernelValue.pred_eq m ρ c).symm
  · obtain ⟨e0, e1, e2, e3, e4, e5, e6, e7, e8⟩ := hagree c
    rw [e3, e4]
    exact (Cert.Proof.KernelValue.lab_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
